-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S8 .f32) (main_arg13 : FVec F S256x8 .f32) (main_arg14 : FVec F S8 .f32) (main_v48 : IVec S_ 1) (main_v49 : FVec F S256x8 .f32) (main_v50 : FVec F S256x8 .f32) : IVec S_ 1 :=
  let main_v51 : IVec S256x8 1 := cmpf .olt main_v49 main_v50
  let main_c_19 : IVec S_ 1 := constantI S_ 1 1#1
  let main_v52 : IVec S_ 1 := (fun x v => Host.reduce IntOp.andi x v reducesTo_S256x8_S_d0_1 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S256x8 .f32 := Host.absf main_arg13
  let main_cst_22 : FVec F S_ .f32 := constant S_ .f32 0x7F800000#32
  let main_v60 : FVec F S256x8 .f32 := broadcastInDim S256x8 ![] bcast_S_S256x8 main_cst_22
  let main_v61 : IVec S256x8 1 := cmpf .olt main_v59 main_v60
  let main_c_23 : IVec S_ 1 := constantI S_ 1 1#1
  let main_v62 : IVec S_ 1 := (fun x v => Host.reduce IntOp.andi x v reducesTo_S256x8_S_d0_1 h_S_) main_v61 main_c_23
  let main_v63 : IVec S_ 1 := andi main_v58 main_v62
  let main_v64 : FVec F S8 .f32 := Host.absf main_arg14
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg8 : FVec F S256 .f32) (main_arg9 : FVec F S256x256 .f32) (main_arg10 : FVec F S256 .f32) (main_arg11 : FVec F S256x8 .f32) (main_arg12 : FVec F S8 .f32) (main_arg13 : FVec F S256x8 .f32) (main_arg14 : FVec F S8 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x8 .f32 := Host.absf main_arg11
  let main_cst_18 : FVec F S_ .f32 := constant S_ .f32 0x7F800000#32
  let main_v50 : FVec F S256x8 .f32 := broadcastInDim S256x8 ![] bcast_S_S256x8 main_cst_18
  fn_part3 (F := F) main_arg12 main_arg13 main_arg14 main_v48 main_v49 main_v50

def fn_part1 {F : FTy → Type} [FloatOps F] (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S256x8 .f32) (main_arg12 : FVec F S8 .f32) (main_arg13 : FVec F S256x8 .f32) (main_arg14 : FVec F S8 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000 .f32) (main_arg3 : FVec F S128x256 .f32) (main_arg4 : FVec F S256 .f32) (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S256x8 .f32) (main_arg12 : FVec F S8 .f32) (main_arg13 : FVec F S256x8 .f32) (main_arg14 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S1x8 : Shape := ⟨2, ![1, 8]⟩
abbrev S50000x8 : Shape := ⟨2, ![50000, 8]⟩
abbrev S2000x8 : Shape := ⟨2, ![2000, 8]⟩
abbrev S2000 : Shape := ⟨1, ![2000]⟩

abbrev nBuf : Space → Nat
  | .hbm => 89
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x8, .f32⟩
  | .hbm, ⟨12, _⟩ => ⟨S8, .f32⟩
  | .hbm, ⟨13, _⟩ => ⟨S256x8, .f32⟩
  | .hbm, ⟨14, _⟩ => ⟨S8, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x256, .f32⟩
  | .hbm, ⟨49, _⟩ => ⟨S1x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S800000x1, .f32⟩
  | .hbm, ⟨61, _⟩ => ⟨S800000x256, .f32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S1x256, .f32⟩
  | .hbm, ⟨68, _⟩ => ⟨S1x256, .f32⟩
  | .hbm, ⟨69, _⟩ => ⟨S50000x256, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x256, .f32⟩
  | .hbm, ⟨79, _⟩ => ⟨S800000x1, .f32⟩
  | .hbm, ⟨80, _⟩ => ⟨S800000x256, .f32⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S1x8, .f32⟩
  | .hbm, ⟨87, _⟩ => ⟨S1x8, .f32⟩
  | .hbm, ⟨88, _⟩ => ⟨S50000x8, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x1, .f32⟩
  | .local _ .vmem, ⟨27, _⟩ => ⟨S2000x1, .f32⟩
  | .local _ .vmem, ⟨28, _⟩ => ⟨S2000x256, .f32⟩
  | .local _ .vmem, ⟨29, _⟩ => ⟨S2000x256, .f32⟩
  | .local _ .vmem, ⟨30, _⟩ => ⟨S256x8, .f32⟩
  | .local _ .vmem, ⟨31, _⟩ => ⟨S1x8, .f32⟩
  | .local _ .vmem, ⟨32, _⟩ => ⟨S256x8, .f32⟩
  | .local _ .vmem, ⟨33, _⟩ => ⟨S1x8, .f32⟩
  | .local _ .vmem, ⟨34, _⟩ => ⟨S2000x8, .f32⟩
  | .local _ .vmem, ⟨35, _⟩ => ⟨S2000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S8_S1x8 : S8.ShapeCasts S1x8
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  reduces_S2000x8_S2000 : S2000x8.Reduces [1] S2000
  shapeCasts_S2000_S2000x1 : S2000.ShapeCasts S2000x1
  broadcasts_S2000x1_S2000x8 : S2000x1.Broadcasts S2000x8
  inb_S2000x8_S2000x8_0_0 : ∀ a, (![0, 0] : Fin 2 → Nat) a + S2000x8.size a ≤ S2000x8.size a
  h_S2000x8 : 0 < S2000x8.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x8_S2000x8_1_0_0_1_n_n_wf : DotDims.WF S2000x256 S256x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x8.size a ≤ S256x8.size a
  hwx2_3 : ∀ i : grid2.Coords, EltTy.bits .f32 = 32 ∨ (Rect.block (s := S256x8) S256x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8.size a ≤ S1x8.size a
  hwx2_4 : ∀ i : grid2.Coords, EltTy.bits .f32 = 32 ∨ (Rect.block (s := S1x8) S1x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x8.size a ≤ S256x8.size a
  hwx2_5 : ∀ i : grid2.Coords, EltTy.bits .f32 = 32 ∨ (Rect.block (s := S256x8) S256x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x8.size a ≤ S1x8.size a
  hwx2_6 : ∀ i : grid2.Coords, EltTy.bits .f32 = 32 ∨ (Rect.block (s := S1x8) S1x8.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x8.size a ≤ S50000x8.size a
  hwx2_7 : ∀ i : grid2.Coords, EltTy.bits .f32 = 32 ∨ (Rect.block (s := S50000x8) S2000x8.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x8_S2000x8_1_0_0_1_n_n : DotDims S2000x256 S256x8 S2000x8 where
  lhsContracting := [1]
  rhsContracting := [0]
  lhsNonContracting := [0]
  rhsNonContracting := [1]
  lhsBatch := []
  rhsBatch := []
  wf := dot_S2000x256_S256x8_S2000x8_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v57) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S256x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S2000x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x8 : Shape := ⟨2, ![50000, 8]⟩
abbrev S1x8 : Shape := ⟨2, ![1, 8]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x256, .f32⟩
  | 4 => ⟨S256, .f32⟩
  | 5 => ⟨S128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x8, .f32⟩
  | 12 => ⟨S8, .f32⟩
  | 13 => ⟨S256x8, .f32⟩
  | 14 => ⟨S8, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S800000x1, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x256, .f32⟩
  | 48 => ⟨S1x256, .f32⟩
  | 49 => ⟨S50000x256, .f32⟩
  | 50 => ⟨S50000x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .f32⟩
  | 68 => ⟨S800000x1, .f32⟩
  | 69 => ⟨S800000x256, .f32⟩
  | 70 => ⟨S800000x256, .f32⟩
  | 71 => ⟨S_, .f32⟩
  | 72 => ⟨S50000x256, .f32⟩
  | 73 => ⟨S800000x1, .i32⟩
  | 74 => ⟨S50000x256, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S50000x256, .f32⟩
  | 92 => ⟨S50000x256, .f32⟩
  | 93 => ⟨S1x256, .f32⟩
  | 94 => ⟨S50000x256, .f32⟩
  | 95 => ⟨S50000x256, .f32⟩
  | 96 => ⟨S_, .f32⟩
  | 97 => ⟨S50000x256, .f32⟩
  | 98 => ⟨S50000x256, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x256, .f32⟩
  | 108 => ⟨S800000x1, .f32⟩
  | 109 => ⟨S800000x256, .f32⟩
  | 110 => ⟨S800000x256, .f32⟩
  | 111 => ⟨S_, .f32⟩
  | 112 => ⟨S50000x256, .f32⟩
  | 113 => ⟨S800000x1, .i32⟩
  | 114 => ⟨S50000x256, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x256, .f32⟩
  | 126 => ⟨S50000x256, .f32⟩
  | 127 => ⟨S50000x8, .f32⟩
  | _ => ⟨S50000x128, .f32⟩

abbrev hbmTy0_1 (i : Nat) : BufTy := match i % 128 with
  | 0 => ⟨S1x8, .f32⟩
  | 1 => ⟨S50000x8, .f32⟩
  | 2 => ⟨S50000x8, .f32⟩
  | 3 => ⟨S50000x8, .f32⟩
  | 4 => ⟨S50000x8, .f32⟩
  | 5 => ⟨S1x8, .f32⟩
  | 6 => ⟨S50000x8, .f32⟩
  | 7 => ⟨S50000x8, .f32⟩
  | 8 => ⟨S_, .f32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x8, .f32⟩
  | 15 => ⟨S50000x8, .f32⟩
  | 16 => ⟨S50000x8, .f32⟩
  | 17 => ⟨S_, .f32⟩
  | 18 => ⟨S50000, .f32⟩
  | 19 => ⟨S50000x1, .f32⟩
  | 20 => ⟨S50000x1, .f32⟩
  | 21 => ⟨S50000x8, .f32⟩
  | 22 => ⟨S50000x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_cst : Ref sig .tc := ⟨.hbm, 56, rfl⟩
abbrev main_call0_v0 : Ref sig .tc := ⟨.hbm, 57, rfl⟩
abbrev main_v35 : Ref sig .tc := ⟨.hbm, 58, rfl⟩
abbrev main_c_4 : Ref sig .tc := ⟨.hbm, 59, rfl⟩
abbrev main_v36 : Ref sig .tc := ⟨.hbm, 60, rfl⟩
abbrev main_v37 : Ref sig .tc := ⟨.hbm, 61, rfl⟩
abbrev main_c_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_cst : Ref sig .tc := ⟨.hbm, 96, rfl⟩
abbrev main_call1_v0 : Ref sig .tc := ⟨.hbm, 97, rfl⟩
abbrev main_v67 : Ref sig .tc := ⟨.hbm, 98, rfl⟩
abbrev main_c_10 : Ref sig .tc := ⟨.hbm, 99, rfl⟩
abbrev main_v68 : Ref sig .tc := ⟨.hbm, 100, rfl⟩
abbrev main_v69 : Ref sig .tc := ⟨.hbm, 101, rfl⟩
abbrev main_c_11 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_12 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_13 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call2_cst : Ref sig .tc := ⟨.hbm, 136, rfl⟩
abbrev main_call2_v0 : Ref sig .tc := ⟨.hbm, 137, rfl⟩
abbrev main_call2_cst_0 : Ref sig .tc := ⟨.hbm, 138, rfl⟩
abbrev main_call2_v1 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_v6 : Ref sig .tc := ⟨.hbm, 144, rfl⟩
abbrev main_call2_cst_1 : Ref sig .tc := ⟨.hbm, 145, rfl⟩
abbrev main_call2_v7 : Ref sig .tc := ⟨.hbm, 146, rfl⟩
abbrev main_call2_v8 : Ref sig .tc := ⟨.hbm, 147, rfl⟩
abbrev main_call2_v9 : Ref sig .tc := ⟨.hbm, 148, rfl⟩
abbrev main_call2_v10 : Ref sig .tc := ⟨.hbm, 149, rfl⟩
abbrev main_v99 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  bcast_S50000x1_S50000x256_0_1 : S50000x1.BroadcastsInDim S50000x256 (![0, 1] : Fin 2 → Fin S50000x256.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  reducesTo_S50000x8_S50000_d1 : S50000x8.ReducesTo [1] S50000
  h_S_ : 0 < S_.numel
  bcast_S50000x1_S50000x8_0_1 : S50000x1.BroadcastsInDim S50000x8 (![0, 1] : Fin 2 → Fin S50000x8.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x8_S50000x8_1_0_0_1_n_n_wf : DotDims.WF S50000x256 S256x8 S50000x8 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x8_S50000x8_1_0_0_1_n_n : DotDims S50000x256 S256x8 S50000x8 where
  lhsContracting := [1]
  rhsContracting := [0]
  lhsNonContracting := [0]
  rhsNonContracting := [1]
  lhsBatch := []
  rhsBatch := []
  wf := dot_S50000x256_S256x8_S50000x8_1_0_0_1_n_n_wf

class Facts : Prop extends Facts₀ where

variable [Facts]
-- ==== Proof.KernelRun.lean ====
/-
  THE KERNEL'S RUN, WITH ITS RESULT.

  Every weakly fair execution of the kernel's @main — three stretches of host operations, each followed by one of the
  three layer regions — terminates without a fault, and in every final state the result buffer holds what the last
  region's write-backs leave in it (the fold of the boundary contents `W6` of the generated frame, read at the
  result), while the fifteen arguments are as launched. This is the frame's run with the final memory read at one
  more buffer: every unscoped buffer ends at the last boundary's contents, the result's among them.
-/
import proofs.«126664_j20968030339124_1_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main, the result buffer read at the last boundary's contents, the arguments as launched. -/
theorem run_value : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.Sage.Run

end
-- ==== Proof.Spec.lean ====
/-
  THE LAYER OF A WEIGHTED MEAN-AGGREGATION GRAPH NETWORK, ENTRY BY ENTRY, OVER THE EXTENDED REALS.

  A node's new features are  mean · Wl + bl + x · Wr + br,  where row r of `mean` is row r of the neighbourhood
  aggregate `agg` divided by the node's in-degree clamped below at one. The hidden layers follow it with max(·, 0);
  the last layer with a log-softmax along the row:  (z q − M) − log Σ_q' exp (z q' − M),  M the row's largest entry.

  One program divides the aggregate by the clamped degree; another multiplies it by the reciprocal 1 / max(c, 1)
  computed once. On the extended reals a quotient by a NONZERO number is the product with its inverse, whatever the
  numerator, and max(c, 1) ≥ 1 is never zero, whatever c: the two agree for every aggregate and every degree,
  infinite ones included (`mul_recip_clamp`).
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The number one, as the float word both programs print for it. -/
abbrev one32 : EReal := Ideal.ofBits .f32 0x3F800000#32
/-- The number zero, as the float word both programs print for it. -/
abbrev zero32 : EReal := Ideal.ofBits .f32 0x00000000#32
/-- Minus infinity, as the float word both programs print for it. -/
abbrev negInf32 : EReal := Ideal.ofBits .f32 0xFF800000#32

theorem one32_eq : one32 = 1 := by
  show Ideal.ofBits .f32 0x3F800000#32 = 1
  simp [Ideal.ofBits, Ideal.ieee, -EReal.coe_mul]; norm_num

theorem negInf32_eq : negInf32 = ⊥ := by
  show Ideal.ofBits .f32 0xFF800000#32 = ⊥
  simp [Ideal.ofBits, Ideal.ieee]

/-- A degree clamped below at one is not zero. -/
theorem clamp_ne_zero (c : EReal) : max c one32 ≠ 0 := by
  rw [one32_eq]
  have h : (1 : EReal) ≤ max c 1 := le_max_right _ _
  intro e
  rw [e] at h
  exact absurd h (by norm_num)

/-- Multiplying by the reciprocal of the clamped degree is dividing by the clamped degree, for every extended real. -/
theorem mul_recip_clamp (a c : EReal) :
    a * Ideal.div one32 (max c one32) = Ideal.div a (max c one32) := by
  have h := clamp_ne_zero c
  unfold Ideal.div
  rw [if_neg h, if_neg h, one32_eq, one_mul]

variable {N A B : Nat}

/-- Entry (r, q) of  mean · Wl + bl + x · Wr + br,  the four terms added in this order. -/
def preAt (agg : FVec Ideal ⟨2, ![N, A]⟩ .f32) (cnt : FVec Ideal ⟨1, ![N]⟩ .f32) (x : FVec Ideal ⟨2, ![N, A]⟩ .f32)
    (Wl : FVec Ideal ⟨2, ![A, B]⟩ .f32) (bl : FVec Ideal ⟨1, ![B]⟩ .f32)
    (Wr : FVec Ideal ⟨2, ![A, B]⟩ .f32) (br : FVec Ideal ⟨1, ![B]⟩ .f32) (r : Fin N) (q : Fin B) : EReal :=
  ((∑ k : Fin A, Ideal.div (agg (ix2 r k)) (max (cnt (ix1 r)) one32) * Wl (ix2 k q)) + bl (ix1 q)
      + ∑ k : Fin A, x (ix2 r k) * Wr (ix2 k q)) + br (ix1 q)

/-- A hidden layer: the entry clamped below at zero. -/
def layerRelu (agg : FVec Ideal ⟨2, ![N, A]⟩ .f32) (cnt : FVec Ideal ⟨1, ![N]⟩ .f32) (x : FVec Ideal ⟨2, ![N, A]⟩ .f32)
    (Wl : FVec Ideal ⟨2, ![A, B]⟩ .f32) (bl : FVec Ideal ⟨1, ![B]⟩ .f32)
    (Wr : FVec Ideal ⟨2, ![A, B]⟩ .f32) (br : FVec Ideal ⟨1, ![B]⟩ .f32) : FVec Ideal ⟨2, ![N, B]⟩ .f32 :=
  fun j => max (preAt agg cnt x Wl bl Wr br (j 0) (j 1)) zero32

/-- The largest entry of a row, folded from minus infinity. -/
def rowMax (z : Fin B → EReal) : EReal := (Finset.univ : Finset (Fin B)).fold max negInf32 z

/-- The log-softmax of a row at an entry. -/
def lsmAt (z : Fin B → EReal) (q : Fin B) : EReal :=
  (z q - rowMax z) - Ideal.log (∑ p : Fin B, Ideal.exp (z p - rowMax z))

/-- The last layer: the log-softmax of the entry's row. -/
def layerLsm (agg : FVec Ideal ⟨2, ![N, A]⟩ .f32) (cnt : FVec Ideal ⟨1, ![N]⟩ .f32) (x : FVec Ideal ⟨2, ![N, A]⟩ .f32)
    (Wl : FVec Ideal ⟨2, ![A, B]⟩ .f32) (bl : FVec Ideal ⟨1, ![B]⟩ .f32)
    (Wr : FVec Ideal ⟨2, ![A, B]⟩ .f32) (br : FVec Ideal ⟨1, ![B]⟩ .f32) : FVec Ideal ⟨2, ![N, B]⟩ .f32 :=
  fun j => lsmAt (fun p => preAt agg cnt x Wl bl Wr br (j 0) p) (j 1)

end Cert.Sage

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«126664_j20968030339124_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.LibLaneMax.lean ====
/-
  The largest entry of each row of a matrix, read at an element, on the extended reals: a
  `vector.multi_reduction <maximumf>` of an M-by-N matrix along its columns (axis 1) is, at row r, the fold of max,
  from the accumulator's value, over the N entries of row r. Also two f32 words as extended reals: the word of minus
  infinity is the bottom element, and the word of 1.0 is 1.
-/
import Idealize.ShloMosaic.PureOps.Ideal.Laws
import Idealize.ShloMosaic.Lib.ValueIdx

noncomputable section

namespace Cert.Lib

open Idealize.ShloMosaic Idealize.ShloMosaic.ValueIdx

variable {φ : FTy}

/-- The largest entry of each row: at row `r`, the fold of max from the accumulator over that row's entries. -/
theorem rowMax_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.maximumf.neutral φ hφ)
    (r : Fin M) :
    multiReduction .maximumf [1] ⟨1, ![M]⟩ src acc h hφ hacc (ix1 r)
      = (Finset.univ : Finset (Fin N)).fold max (Ideal.ofBits φ acc) (fun k => src (ix2 r k)) :=
  (Ideal.multiReduction_maximumf_single src acc h hφ hacc (ix1 r)).trans
    (congrArg (fun f : Fin N → EReal => (Finset.univ : Finset (Fin N)).fold max (Ideal.ofBits φ acc) f)
      (funext fun k => congrArg src (funext fun a => Fin.ext (by
        match a with
        | ⟨0, _⟩ => rfl
        | ⟨1, _⟩ => rfl))))

/-- The f32 word of minus infinity is the bottom extended real. -/
theorem ofBits_negInf_f32 : Ideal.ofBits .f32 0xFF800000#32 = ⊥ := by simp [Ideal.ofBits, Ideal.ieee]

/-- The f32 word of 1.0 is the extended real 1. -/
theorem ofBits_one_f32 : Ideal.ofBits .f32 0x3F800000#32 = 1 := by
  simp [Ideal.ofBits, Ideal.ieee, -EReal.coe_mul]; norm_num

end Cert.Lib

end
-- ==== Proof.KernelLayer.lean ====
/-
  THE LAYER IN A KERNEL'S SPELLING, READ AT AN ENTRY.

  A block of M rows of the layer, as a kernel computes it: the aggregate's rows scaled by a column of reciprocals
  (a column repeated across the row), two matrix products into zero accumulators, two bias rows repeated down the
  rows, the four terms added left to right. Entry (r, q) depends on row r of the row-blocked operands only, and on
  the whole weight matrices and bias rows (`kPreAt`, `kPre_at`, `kPreAt_congr`).

  On top of it either max(·, 0), or the log-softmax of the row in the kernel's spelling: the row's largest entry as
  a lane reduction from minus infinity, recast to a column and repeated across the row; the row's sum of exponentials
  likewise (`kLsm_at`).

  Last, the same entries against the specification: when the column of reciprocals is 1 / max(cnt, 1) recast from a
  vector to a column, and the bias rows are the bias vectors recast to rows, the entry is the specification's
  (`kPreAt_spec`): multiplying by the reciprocal of the clamped degree is dividing by it.
-/
import Idealize.ShloMosaic.PureOps.Ideal.Laws
import Idealize.ShloMosaic.Lib.ValueIdx
import Idealize.ShloMosaic.Lib.ValueLayout
import Idealize.ShloMosaic.Lib.Pipeline.Value
import proofs.«126664_j20968030339124_1_alg».proof.Proof.Spec
import proofs.«126664_j20968030339124_1_alg».proof.Proof.LibRowReads
import proofs.«126664_j20968030339124_1_alg».proof.Proof.LibColBroadcast
import proofs.«126664_j20968030339124_1_alg».proof.Proof.LibColCast
import proofs.«126664_j20968030339124_1_alg».proof.Proof.LibLaneSums
import proofs.«126664_j20968030339124_1_alg».proof.Proof.LibLaneMax

noncomputable section

open scoped BigOperators

namespace Cert.Sage

open Idealize.ShloMosaic Idealize.ShloMosaic.ValueIdx Cert.Lib

variable {M A B : Nat}

/-- Entry (r, q) of the layer before its nonlinearity, from the aggregate, the column of reciprocals, the features,
    the two weight matrices and the two bias ROWS. -/
def kPreAt (agg : FVec Ideal ⟨2, ![M, A]⟩ .f32) (inv : FVec Ideal ⟨2, ![M, 1]⟩ .f32) (x : FVec Ideal ⟨2, ![M, A]⟩ .f32)
    (Wl : FVec Ideal ⟨2, ![A, B]⟩ .f32) (bl : FVec Ideal ⟨2, ![1, B]⟩ .f32)
    (Wr : FVec Ideal ⟨2, ![A, B]⟩ .f32) (br : FVec Ideal ⟨2, ![1, B]⟩ .f32) (r : Fin M) (q : Fin B) : EReal :=
  ((∑ k : Fin A, (agg (ix2 r k) * inv (ix2 r (0 : Fin 1))) * Wl (ix2 k q)) + bl (ix2 (0 : Fin 1) q)
      + ∑ k : Fin A, x (ix2 r k) * Wr (ix2 k q)) + br (ix2 (0 : Fin 1) q)

/-- The entry depends on the row-blocked operands through their row only: two families of operands that agree on
    the row give the same entry, at whatever row numbers. -/
theorem kPreAt_congr {M' : Nat} (agg : FVec Ideal ⟨2, ![M, A]⟩ .f32) (inv : FVec Ideal ⟨2, ![M, 1]⟩ .f32)
    (x : FVec Ideal ⟨2, ![M, A]⟩ .f32) (agg' : FVec Ideal ⟨2, ![M', A]⟩ .f32) (inv' : FVec Ideal ⟨2, ![M', 1]⟩ .f32)
    (x' : FVec Ideal ⟨2, ![M', A]⟩ .f32)
    (Wl : FVec Ideal ⟨2, ![A, B]⟩ .f32) (bl : FVec Ideal ⟨2, ![1, B]⟩ .f32)
    (Wr : FVec Ideal ⟨2, ![A, B]⟩ .f32) (br : FVec Ideal ⟨2, ![1, B]⟩ .f32) (r : Fin M) (r' : Fin M')
    (hagg : ∀ k : Fin A, agg (ix2 r k) = agg' (ix2 r' k)) (hinv : inv (ix2 r (0 : Fin 1)) = inv' (ix2 r' (0 : Fin 1)))
    (hx : ∀ k : Fin A, x (ix2 r k) = x' (ix2 r' k)) (q : Fin B) :
    kPreAt agg inv x Wl bl Wr br r q = kPreAt agg' inv' x' Wl bl Wr br r' q := by
  unfold kPreAt
  simp only [hagg, hinv, hx]

variable (d : DotDims ⟨2, ![M, A]⟩ ⟨2, ![A, B]⟩ ⟨2, ![M, B]⟩)

/-- The block before its nonlinearity, in the kernel's spelling. -/
def kPre (hlt : FTy.bits .bf16 < FTy.bits .f32)
    (hc : (⟨2, ![M, 1]⟩ : Shape).Broadcasts ⟨2, ![M, A]⟩) (hr : (⟨2, ![1, B]⟩ : Shape).Broadcasts ⟨2, ![M, B]⟩)
    (agg : FVec Ideal ⟨2, ![M, A]⟩ .f32) (inv : FVec Ideal ⟨2, ![M, 1]⟩ .f32) (x : FVec Ideal ⟨2, ![M, A]⟩ .f32)
    (Wl : FVec Ideal ⟨2, ![A, B]⟩ .f32) (bl : FVec Ideal ⟨2, ![1, B]⟩ .f32)
    (Wr : FVec Ideal ⟨2, ![A, B]⟩ .f32) (br : FVec Ideal ⟨2, ![1, B]⟩ .f32) : FVec Ideal ⟨2, ![M, B]⟩ .f32 :=
  addf (addf (addf
      (matmul d none (truncf .bf16 (mulf agg (broadcastTo ⟨2, ![M, A]⟩ inv hc)) hlt) (truncf .bf16 Wl hlt)
        (constant (F := Ideal) ⟨2, ![M, B]⟩ .f32 0x00000000#32))
      (broadcastTo ⟨2, ![M, B]⟩ bl hr))
      (matmul d none (truncf .bf16 x hlt) (truncf .bf16 Wr hlt) (constant (F := Ideal) ⟨2, ![M, B]⟩ .f32 0x00000000#32)))
    (broadcastTo ⟨2, ![M, B]⟩ br hr)

/-- The kernel's block, at (r, q), is the entry. -/
theorem kPre_at (hl : d.lhsContracting = [1]) (hr' : d.rhsContracting = [0])
    (hln : d.lhsNonContracting = [0]) (hrn : d.rhsNonContracting = [1]) (hlb : d.lhsBatch = []) (hrb : d.rhsBatch = [])
    (hlt : FTy.bits .bf16 < FTy.bits .f32)
    (hc : (⟨2, ![M, 1]⟩ : Shape).Broadcasts ⟨2, ![M, A]⟩) (hr : (⟨2, ![1, B]⟩ : Shape).Broadcasts ⟨2, ![M, B]⟩)
    (agg : FVec Ideal ⟨2, ![M, A]⟩ .f32) (inv : FVec Ideal ⟨2, ![M, 1]⟩ .f32) (x : FVec Ideal ⟨2, ![M, A]⟩ .f32)
    (Wl : FVec Ideal ⟨2, ![A, B]⟩ .f32) (bl : FVec Ideal ⟨2, ![1, B]⟩ .f32)
    (Wr : FVec Ideal ⟨2, ![A, B]⟩ .f32) (br : FVec Ideal ⟨2, ![1, B]⟩ .f32) (r : Fin M) (q : Fin B) :
    kPre d hlt hc hr agg inv x Wl bl Wr br (ix2 r q) = kPreAt agg inv x Wl bl Wr br r q := by
  unfold kPre kPreAt
  rw [addf_apply, addf_apply, addf_apply, matmul_zero_at d hl hr' hln hrn hlb hrb, matmul_zero_at d hl hr' hln hrn hlb hrb,
    broadcastTo_1b_ab_apply, broadcastTo_1b_ab_apply]
  simp only [truncf_apply, mulf_apply, broadcastTo_a1_ab_apply]

/-- The log-softmax of a block's rows, in the kernel's spelling. -/
def kLsm (hred : Shape.Reduces ⟨2, ![M, B]⟩ [1] ⟨1, ![M]⟩) (hcast : (⟨1, ![M]⟩ : Shape).ShapeCasts ⟨2, ![M, 1]⟩)
    (hbc : (⟨2, ![M, 1]⟩ : Shape).Broadcasts ⟨2, ![M, B]⟩) (z : FVec Ideal ⟨2, ![M, B]⟩ .f32) :
    FVec Ideal ⟨2, ![M, B]⟩ .f32 :=
  subf
    (subf z (broadcastTo ⟨2, ![M, B]⟩
      (shapeCast ⟨2, ![M, 1]⟩ (multiReduction .maximumf [1] ⟨1, ![M]⟩ z 0xFF800000#32 hred (.inl rfl) rfl) hcast) hbc))
    (broadcastTo ⟨2, ![M, B]⟩
      (log (shapeCast ⟨2, ![M, 1]⟩
        (multiReduction .add [1] ⟨1, ![M]⟩
          (exp (subf z (broadcastTo ⟨2, ![M, B]⟩
            (shapeCast ⟨2, ![M, 1]⟩ (multiReduction .maximumf [1] ⟨1, ![M]⟩ z 0xFF800000#32 hred (.inl rfl) rfl) hcast) hbc)))
          0x00000000#32 hred (.inl rfl) rfl) hcast)) hbc)

/-- The kernel's log-softmax block, at (r, q), is the log-softmax of row r at q. -/
theorem kLsm_at (hred : Shape.Reduces ⟨2, ![M, B]⟩ [1] ⟨1, ![M]⟩) (hcast : (⟨1, ![M]⟩ : Shape).ShapeCasts ⟨2, ![M, 1]⟩)
    (hbc : (⟨2, ![M, 1]⟩ : Shape).Broadcasts ⟨2, ![M, B]⟩) (z : FVec Ideal ⟨2, ![M, B]⟩ .f32) (r : Fin M) (q : Fin B) :
    kLsm hred hcast hbc z (ix2 r q) = lsmAt (fun p => z (ix2 r p)) q := by
  -- the row's largest entry, repeated across the row, read anywhere in the row
  have hmax : ∀ p : Fin B, (broadcastTo ⟨2, ![M, B]⟩
      (shapeCast ⟨2, ![M, 1]⟩ (multiReduction .maximumf [1] ⟨1, ![M]⟩ z 0xFF800000#32 hred (.inl rfl) rfl) hcast) hbc) (ix2 r p)
        = rowMax (fun p => z (ix2 r p)) := by
    intro p
    refine (broadcastTo_a1_ab_apply _ hbc r p).trans ?_
    refine (shapeCast_a_a1_apply _ hcast r (0 : Fin 1)).trans ?_
    exact rowMax_apply z 0xFF800000#32 hred (.inl rfl) rfl r
  unfold kLsm lsmAt
  refine (subf_apply _ _ _).trans ?_
  refine congrArg₂ (fun a b : EReal => a - b) ?_ ?_
  · exact (subf_apply _ _ _).trans (congrArg (fun m : EReal => z (ix2 r q) - m) (hmax q))
  · refine (broadcastTo_a1_ab_apply _ hbc r q).trans ?_
    show Ideal.log _ = Ideal.log _
    refine congrArg Ideal.log ?_
    refine (shapeCast_a_a1_apply _ hcast r (0 : Fin 1)).trans ?_
    refine (rowSum_apply _ 0x00000000#32 hred (.inl rfl) rfl r).trans ?_
    refine Finset.sum_congr rfl fun p _ => ?_
    show Ideal.exp _ = Ideal.exp _
    refine congrArg Ideal.exp ?_
    exact (subf_apply _ _ _).trans (congrArg (fun m : EReal => z (ix2 r p) - m) (hmax p))

/-- Against the specification: with the column of reciprocals 1 / max(cnt, 1) and the bias rows the bias vectors
    recast, the kernel's entry is the specification's. -/
theorem kPreAt_spec (agg : FVec Ideal ⟨2, ![M, A]⟩ .f32) (cnt : FVec Ideal ⟨1, ![M]⟩ .f32) (x : FVec Ideal ⟨2, ![M, A]⟩ .f32)
    (Wl : FVec Ideal ⟨2, ![A, B]⟩ .f32) (bl : FVec Ideal ⟨1, ![B]⟩ .f32)
    (Wr : FVec Ideal ⟨2, ![A, B]⟩ .f32) (br : FVec Ideal ⟨1, ![B]⟩ .f32)
    (inv : FVec Ideal ⟨2, ![M, 1]⟩ .f32) (bl2 br2 : FVec Ideal ⟨2, ![1, B]⟩ .f32)
    (hinv : ∀ r : Fin M, inv (ix2 r (0 : Fin 1)) = Ideal.div one32 (max (cnt (ix1 r)) one32))
    (hbl : ∀ q : Fin B, bl2 (ix2 (0 : Fin 1) q) = bl (ix1 q)) (hbr : ∀ q : Fin B, br2 (ix2 (0 : Fin 1) q) = br (ix1 q))
    (r : Fin M) (q : Fin B) :
    kPreAt agg inv x Wl bl2 Wr br2 r q = preAt agg cnt x Wl bl Wr br r q := by
  unfold kPreAt preAt
  simp only [hinv, hbl, hbr, mul_recip_clamp]

end Cert.Sage

end
-- ==== Proof.KernelPoint.lean ====
/-
  FROM A BLOCK OF ROWS TO THE WHOLE ARRAY.

  The layer as one function of whole arrays, in the kernel's operands (the aggregate, a COLUMN of reciprocals, the
  features, the weights, the bias ROWS): `kLayerRelu`, `kLayerLsm`. A row-tiled kernel computes rows
  T .. T + M − 1 of it from rows T .. T + M − 1 of the row-blocked operands and from the whole weights: the block's
  entry (r, q) is the array's entry (T + r, q) (`relu_point`, `lsm_point`), because an entry depends on the
  row-blocked operands through its own row only.

  And the same functions against the specification (`kLayerRelu_spec`, `kLayerLsm_spec`): the column of
  reciprocals being 1 / max(cnt, 1) recast from a vector, the bias rows the bias vectors recast.
-/
import proofs.«126664_j20968030339124_1_alg».proof.Proof.KernelLayer

noncomputable section

open scoped BigOperators

namespace Cert.Sage

open Idealize.ShloMosaic Idealize.ShloMosaic.ValueIdx Cert.Lib

variable {N M A B : Nat}

/-- A hidden layer over whole arrays, in the kernel's operands. -/
def kLayerRelu (agg : FVec Ideal ⟨2, ![N, A]⟩ .f32) (inv : FVec Ideal ⟨2, ![N, 1]⟩ .f32) (x : FVec Ideal ⟨2, ![N, A]⟩ .f32)
    (Wl : FVec Ideal ⟨2, ![A, B]⟩ .f32) (bl : FVec Ideal ⟨2, ![1, B]⟩ .f32)
    (Wr : FVec Ideal ⟨2, ![A, B]⟩ .f32) (br : FVec Ideal ⟨2, ![1, B]⟩ .f32) : FVec Ideal ⟨2, ![N, B]⟩ .f32 :=
  fun j => max (kPreAt agg inv x Wl bl Wr br (j 0) (j 1)) zero32

/-- The last layer over whole arrays, in the kernel's operands. -/
def kLayerLsm (agg : FVec Ideal ⟨2, ![N, A]⟩ .f32) (inv : FVec Ideal ⟨2, ![N, 1]⟩ .f32) (x : FVec Ideal ⟨2, ![N, A]⟩ .f32)
    (Wl : FVec Ideal ⟨2, ![A, B]⟩ .f32) (bl : FVec Ideal ⟨2, ![1, B]⟩ .f32)
    (Wr : FVec Ideal ⟨2, ![A, B]⟩ .f32) (br : FVec Ideal ⟨2, ![1, B]⟩ .f32) : FVec Ideal ⟨2, ![N, B]⟩ .f32 :=
  fun j => lsmAt (fun p => kPreAt agg inv x Wl bl Wr br (j 0) p) (j 1)

section Point

variable (AGG : FVec Ideal ⟨2, ![N, A]⟩ .f32) (INV : FVec Ideal ⟨2, ![N, 1]⟩ .f32) (X : FVec Ideal ⟨2, ![N, A]⟩ .f32)
  (Wl : FVec Ideal ⟨2, ![A, B]⟩ .f32) (bl : FVec Ideal ⟨2, ![1, B]⟩ .f32)
  (Wr : FVec Ideal ⟨2, ![A, B]⟩ .f32) (br : FVec Ideal ⟨2, ![1, B]⟩ .f32)
  (x0 : FVec Ideal ⟨2, ![M, A]⟩ .f32) (x1 : FVec Ideal ⟨2, ![M, 1]⟩ .f32) (x2 : FVec Ideal ⟨2, ![M, A]⟩ .f32) (T : Nat)
  (h0 : ∀ (r : Fin M) (k : Fin A) (R : Fin N), R.val = T + r.val → x0 (ix2 r k) = AGG (ix2 R k))
  (h1 : ∀ (r : Fin M) (R : Fin N), R.val = T + r.val → x1 (ix2 r (0 : Fin 1)) = INV (ix2 R (0 : Fin 1)))
  (h2 : ∀ (r : Fin M) (k : Fin A) (R : Fin N), R.val = T + r.val → x2 (ix2 r k) = X (ix2 R k))

include h0 h1 h2

/-- Row r of a block that starts at row T is row T + r of the array: the entries agree. -/
theorem pre_point (r : Fin M) (R : Fin N) (hR : R.val = T + r.val) (q : Fin B) :
    kPreAt x0 x1 x2 Wl bl Wr br r q = kPreAt AGG INV X Wl bl Wr br R q :=
  kPreAt_congr x0 x1 x2 AGG INV X Wl bl Wr br r R (fun k => h0 r k R hR) (h1 r R hR) (fun k => h2 r k R hR) q

/-- A hidden layer's block entry is the array's entry. -/
theorem relu_point (r : Fin M) (q : Fin B) (i : (⟨2, ![N, B]⟩ : Shape).Idx) (hi0 : (i 0).val = T + r.val)
    (hi1 : (i 1).val = q.val) :
    max (kPreAt x0 x1 x2 Wl bl Wr br r q) zero32 = kLayerRelu AGG INV X Wl bl Wr br i := by
  obtain ⟨R, Q, rfl⟩ : ∃ (R : Fin N) (Q : Fin B), i = ix2 R Q := ⟨i 0, i 1, eq_ix2 i⟩
  have hQ : Q = q := Fin.ext hi1
  subst hQ
  show _ = max (kPreAt AGG INV X Wl bl Wr br R Q) zero32
  rw [pre_point AGG INV X Wl bl Wr br x0 x1 x2 T h0 h1 h2 r R hi0 Q]

/-- The last layer's block entry is the array's entry. -/
theorem lsm_point (r : Fin M) (q : Fin B) (i : (⟨2, ![N, B]⟩ : Shape).Idx) (hi0 : (i 0).val = T + r.val)
    (hi1 : (i 1).val = q.val) :
    lsmAt (fun p => kPreAt x0 x1 x2 Wl bl Wr br r p) q = kLayerLsm AGG INV X Wl bl Wr br i := by
  obtain ⟨R, Q, rfl⟩ : ∃ (R : Fin N) (Q : Fin B), i = ix2 R Q := ⟨i 0, i 1, eq_ix2 i⟩
  have hQ : Q = q := Fin.ext hi1
  subst hQ
  show _ = lsmAt (fun p => kPreAt AGG INV X Wl bl Wr br R p) Q
  rw [show (fun p => kPreAt x0 x1 x2 Wl bl Wr br r p) = fun p => kPreAt AGG INV X Wl bl Wr br R p from
    funext fun p => pre_point AGG INV X Wl bl Wr br x0 x1 x2 T h0 h1 h2 r R hi0 p]

end Point

section Spec

variable (agg : FVec Ideal ⟨2, ![N, A]⟩ .f32) (cnt : FVec Ideal ⟨1, ![N]⟩ .f32) (x : FVec Ideal ⟨2, ![N, A]⟩ .f32)
  (Wl : FVec Ideal ⟨2, ![A, B]⟩ .f32) (bl : FVec Ideal ⟨1, ![B]⟩ .f32)
  (Wr : FVec Ideal ⟨2, ![A, B]⟩ .f32) (br : FVec Ideal ⟨1, ![B]⟩ .f32)
  (inv : FVec Ideal ⟨2, ![N, 1]⟩ .f32) (bl2 br2 : FVec Ideal ⟨2, ![1, B]⟩ .f32)
  (hinv : ∀ r : Fin N, inv (ix2 r (0 : Fin 1)) = Ideal.div one32 (max (cnt (ix1 r)) one32))
  (hbl : ∀ q : Fin B, bl2 (ix2 (0 : Fin 1) q) = bl (ix1 q)) (hbr : ∀ q : Fin B, br2 (ix2 (0 : Fin 1) q) = br (ix1 q))

include hinv hbl hbr

/-- A hidden layer in the kernel's operands is the specification's. -/
theorem kLayerRelu_spec : kLayerRelu agg inv x Wl bl2 Wr br2 = layerRelu agg cnt x Wl bl Wr br := by
  funext j
  obtain ⟨R, Q, rfl⟩ : ∃ (R : Fin N) (Q : Fin B), j = ix2 R Q := ⟨j 0, j 1, eq_ix2 j⟩
  show max (kPreAt agg inv x Wl bl2 Wr br2 R Q) zero32 = max (preAt agg cnt x Wl bl Wr br R Q) zero32
  rw [kPreAt_spec agg cnt x Wl bl Wr br inv bl2 br2 hinv hbl hbr R Q]

/-- The last layer in the kernel's operands is the specification's. -/
theorem kLayerLsm_spec : kLayerLsm agg inv x Wl bl2 Wr br2 = layerLsm agg cnt x Wl bl Wr br := by
  funext j
  obtain ⟨R, Q, rfl⟩ : ∃ (R : Fin N) (Q : Fin B), j = ix2 R Q := ⟨j 0, j 1, eq_ix2 j⟩
  show lsmAt (fun p => kPreAt agg inv x Wl bl2 Wr br2 R p) Q = lsmAt (fun p => preAt agg cnt x Wl bl Wr br R p) Q
  rw [show (fun p => kPreAt agg inv x Wl bl2 Wr br2 R p) = fun p => preAt agg cnt x Wl bl Wr br R p from
    funext fun p => kPreAt_spec agg cnt x Wl bl Wr br inv bl2 br2 hinv hbl hbr R p]

end Spec

end Cert.Sage

end
-- ==== Proof.Region0.lean ====
/-
  REGION 0 OF THE KERNEL: WHAT ITS OUTPUT ARRAY HOLDS AFTERWARDS.

  The region runs the layer's body on 25 blocks of 2000 rows. Grid point t fetches rows 2000·t … 2000·t + 1999 of the
  aggregate, of the column of reciprocals and of the features, and the whole of the two weight matrices and of the two
  bias rows, and writes back rows 2000·t … 2000·t + 1999 of the result. The body's stored value at (r, q) is the
  layer's entry of row r of the blocks (`pay_at`), which is the layer's entry (2000·t + r, q) of the whole arrays as
  the region finds them (`flushed_eq`); the 25 blocks tile the result (`cover`); so the result array ends holding the
  layer of the whole arrays (`final`). Stated for any contents `V` of the buffers at the region's entry.
-/
import proofs.«126664_j20968030339124_1_alg».proof.Proof.Gen.KernelIdeal.Frame
import proofs.«126664_j20968030339124_1_alg».proof.Proof.KernelPoint
import Idealize.ShloMosaic.Lib.Pipeline.Value

set_option maxRecDepth 16384

noncomputable section

namespace Cert.Sage.K0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib Cert.Sage

theorem hz : (![0, 0] : Fin 2 → Nat) = fun _ => 0 := funext fun a => by fin_cases a <;> rfl

/-- The body's stored value is the layer's block in the kernel's spelling: the casts of a block to its own shape
    are the identity. -/
theorem pay_eq (v0 : Vec Ideal S2000x128 .f32) (v2 : Vec Ideal S2000x1 .f32) (v7 : Vec Ideal S2000x128 .f32)
    (vWl : Vec Ideal S128x256 .f32) (vWr : Vec Ideal S128x256 .f32) (vbl : Vec Ideal S1x256 .f32) (vbr : Vec Ideal S1x256 .f32) :
    k0_pay1 (F := Ideal) v0 v2 v7 vWl vWr vbl vbr
      = maximumf (kPre dot_S2000x128_S128x256_S2000x256_1_0_0_1_n_n bitsLt_bf16_f32 broadcasts_S2000x1_S2000x128 broadcasts_S1x256_S2000x256 v0 v2 v7 vWl vbl vWr vbr)
          (broadcast S2000x256 (Scalar.ofBits .f32 0x00000000#32)) := by
  unfold k0_pay1
  simp only [shapeCast_self]
  rfl

/-- The body's stored value at (r, q). -/
theorem pay_at (v0 : Vec Ideal S2000x128 .f32) (v2 : Vec Ideal S2000x1 .f32) (v7 : Vec Ideal S2000x128 .f32)
    (vWl : Vec Ideal S128x256 .f32) (vWr : Vec Ideal S128x256 .f32) (vbl : Vec Ideal S1x256 .f32) (vbr : Vec Ideal S1x256 .f32)
    (r : Fin 2000) (q : Fin 256) :
    k0_pay1 (F := Ideal) v0 v2 v7 vWl vWr vbl vbr (ix2 r q) = max (kPreAt v0 v2 v7 vWl vbl vWr vbr r q) zero32 := by
  rw [pay_eq]
  refine (maximumf_apply _ _ _).trans ?_
  refine congrArg₂ (fun a b : EReal => max a b) ?_ rfl
  exact kPre_at _ rfl rfl rfl rfl rfl rfl _ _ _ v0 v2 v7 vWl vbl vWr vbr r q

variable (V : (c : Dev nD) → (b : Ref sig .tc) → Buf (Elt Ideal) ((c : Thread nD τ).loc b))

/-- The layer of the whole arrays the region finds. -/
def G (c : Dev nD) : S50000x256.Idx → EReal :=
  kLayerRelu (N := 50000) (A := 128) (B := 256) (V c main_v25) (V c main_v12) (V c main_arg0) (V c main_arg3) (V c main_v26) (V c main_arg5) (V c main_v27)

/-- The printed index maps over the grid: the three row-blocked inputs move with the output, block column 0; the
    weights and bias rows stay at block (0, 0). -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 24 :=
  (by decide +kernel : ∀ t : Fin grid0.N, _)

/-- Every block row is some point's. -/
theorem idx_onto : ∀ q0 : Fin 25, ∃ t : Fin cfg0.N, win0_7.index t = ![q0.val, 0] :=
  (by decide +kernel : ∀ q0 : Fin 25, ∃ t : Fin grid0.N, win0_7.index t = ![q0.val, 0])

/-- WHAT POINT t WRITES BACK is block t of the layer of the whole arrays. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S2000x1) hz, View.ld_unit_zero (S := S128x256) hz,
    View.ld_unit_zero (S := S1x256) hz]
  obtain ⟨e00, e01, e10, e11, e20, e21, e30, e31, e40, e41, e50, e51, e60, e61, e71, e7⟩ := idx_facts t
  -- the weights' and bias rows' blocks are the whole arrays
  have w3 : iblk0 V c 3 t = V c main_arg3 := by
    funext z
    show V c main_arg3 (((cfg0.win 3).blk t).view.emb z) = V c main_arg3 z
    refine congrArg _ (funext fun a => Fin.ext ?_)
    match a with
    | ⟨0, _⟩ => show win0_3.index t (0 : Fin 2) * 128 + 1 * (z 0).val = (z 0).val; omega
    | ⟨1, _⟩ => show win0_3.index t (1 : Fin 2) * 256 + 1 * (z 1).val = (z 1).val; omega
  have w4 : iblk0 V c 4 t = V c main_v26 := by
    funext z
    show V c main_v26 (((cfg0.win 4).blk t).view.emb z) = V c main_v26 z
    refine congrArg _ (funext fun a => Fin.ext ?_)
    match a with
    | ⟨0, _⟩ => show win0_4.index t (0 : Fin 2) * 1 + 1 * (z 0).val = (z 0).val; omega
    | ⟨1, _⟩ => show win0_4.index t (1 : Fin 2) * 256 + 1 * (z 1).val = (z 1).val; omega
  have w5 : iblk0 V c 5 t = V c main_arg5 := by
    funext z
    show V c main_arg5 (((cfg0.win 5).blk t).view.emb z) = V c main_arg5 z
    refine congrArg _ (funext fun a => Fin.ext ?_)
    match a with
    | ⟨0, _⟩ => show win0_5.index t (0 : Fin 2) * 128 + 1 * (z 0).val = (z 0).val; omega
    | ⟨1, _⟩ => show win0_5.index t (1 : Fin 2) * 256 + 1 * (z 1).val = (z 1).val; omega
  have w6 : iblk0 V c 6 t = V c main_v27 := by
    funext z
    show V c main_v27 (((cfg0.win 6).blk t).view.emb z) = V c main_v27 z
    refine congrArg _ (funext fun a => Fin.ext ?_)
    match a with
    | ⟨0, _⟩ => show win0_6.index t (0 : Fin 2) * 1 + 1 * (z 0).val = (z 0).val; omega
    | ⟨1, _⟩ => show win0_6.index t (1 : Fin 2) * 256 + 1 * (z 1).val = (z 1).val; omega
  rw [w3, w4, w5, w6]
  -- the row-blocked inputs' blocks are rows 2000·t … of their arrays
  have b0 : ∀ (r : Fin 2000) (k : Fin 128) (R : Fin 50000), R.val = win0_7.index t (0 : Fin 2) * 2000 + r.val →
      iblk0 V c 0 t (ix2 r k) = V c main_v25 (ix2 R k) := by
    intro r k R hR
    show V c main_v25 (((cfg0.win 0).blk t).view.emb (ix2 r k)) = V c main_v25 (ix2 R k)
    refine congrArg _ (funext fun a => Fin.ext ?_)
    match a with
    | ⟨0, _⟩ => show win0_0.index t (0 : Fin 2) * 2000 + 1 * r.val = R.val; omega
    | ⟨1, _⟩ => show win0_0.index t (1 : Fin 2) * 128 + 1 * k.val = k.val; omega
  have b1 : ∀ (r : Fin 2000) (R : Fin 50000), R.val = win0_7.index t (0 : Fin 2) * 2000 + r.val →
      iblk0 V c 1 t (ix2 r (0 : Fin 1)) = V c main_v12 (ix2 R (0 : Fin 1)) := by
    intro r R hR
    show V c main_v12 (((cfg0.win 1).blk t).view.emb (ix2 r (0 : Fin 1))) = V c main_v12 (ix2 R (0 : Fin 1))
    refine congrArg _ (funext fun a => Fin.ext ?_)
    match a with
    | ⟨0, _⟩ => show win0_1.index t (0 : Fin 2) * 2000 + 1 * r.val = R.val; omega
    | ⟨1, _⟩ => show win0_1.index t (1 : Fin 2) * 1 + 1 * 0 = 0; omega
  have b2 : ∀ (r : Fin 2000) (k : Fin 128) (R : Fin 50000), R.val = win0_7.index t (0 : Fin 2) * 2000 + r.val →
      iblk0 V c 2 t (ix2 r k) = V c main_arg0 (ix2 R k) := by
    intro r k R hR
    show V c main_arg0 (((cfg0.win 2).blk t).view.emb (ix2 r k)) = V c main_arg0 (ix2 R k)
    refine congrArg _ (funext fun a => Fin.ext ?_)
    match a with
    | ⟨0, _⟩ => show win0_2.index t (0 : Fin 2) * 2000 + 1 * r.val = R.val; omega
    | ⟨1, _⟩ => show win0_2.index t (1 : Fin 2) * 128 + 1 * k.val = k.val; omega
  funext j
  obtain ⟨r, q, rfl⟩ : ∃ (r : Fin 2000) (q : Fin 256), j = ix2 r q := ⟨j 0, j 1, eq_ix2 j⟩
  refine (pay_at (iblk0 V c 0 t) (iblk0 V c 1 t) (iblk0 V c 2 t) (V c main_arg3) (V c main_arg5) (V c main_v26) (V c main_v27) r q).trans ?_
  refine relu_point (N := 50000) (V c main_v25) (V c main_v12) (V c main_arg0) (V c main_arg3) (V c main_v26) (V c main_arg5) (V c main_v27)
    (iblk0 V c 0 t) (iblk0 V c 1 t) (iblk0 V c 2 t) (win0_7.index t (0 : Fin 2) * 2000) b0 b1 b2 r q
    (((cfg0.win 7).blk t).view.emb (ix2 r q)) ?_ ?_
  · show win0_7.index t (0 : Fin 2) * 2000 + 1 * r.val = win0_7.index t (0 : Fin 2) * 2000 + r.val; omega
  · show win0_7.index t (1 : Fin 2) * 256 + 1 * q.val = q.val; omega

/-- An index of the result is in point t's block iff each coordinate is in the block's range on its axis. -/
theorem mem_blk (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v28).slice (win0_7.rect t)).set ↔ _
  rw [View.set_slice_whole, Rect.mem_set_unit]
  exact Iff.rfl

/-- The 25 blocks tile the result: row R lies in the block of point R / 2000. -/
theorem cover (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 256 ≤ (i 1).val ∧ (i 1).val < win0_7.index t (1 : Fin 2) * 256 + 256; omega

/-- THE RESULT ARRAY after the region: the layer of the whole arrays the region found. -/
theorem final (c : Dev nD) : (dat0 V c).arrAt 7 cfg0.N = G V c :=
  (dat0 V c).arrAt_eq_of_cover 7 (G V c) (fun t _ => flushed_eq V c t) cover

end Cert.Sage.K0

end
-- ==== Proof.Region1.lean ====
/-
  REGION 1 OF THE KERNEL: WHAT ITS OUTPUT ARRAY HOLDS AFTERWARDS.

  The region runs the layer's body on 25 blocks of 2000 rows. Grid point t fetches rows 2000·t … 2000·t + 1999 of the
  aggregate, of the column of reciprocals and of the features, and the whole of the two weight matrices and of the two
  bias rows, and writes back rows 2000·t … 2000·t + 1999 of the result. The body's stored value at (r, q) is the
  layer's entry of row r of the blocks (`pay_at`), which is the layer's entry (2000·t + r, q) of the whole arrays as
  the region finds them (`flushed_eq`); the 25 blocks tile the result (`cover`); so the result array ends holding the
  layer of the whole arrays (`final`). Stated for any contents `V` of the buffers at the region's entry.
-/
import proofs.«126664_j20968030339124_1_alg».proof.Proof.Gen.KernelIdeal.Frame
import proofs.«126664_j20968030339124_1_alg».proof.Proof.KernelPoint
import Idealize.ShloMosaic.Lib.Pipeline.Value

set_option maxRecDepth 16384

noncomputable section

namespace Cert.Sage.K1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib Cert.Sage

theorem hz : (![0, 0] : Fin 2 → Nat) = fun _ => 0 := funext fun a => by fin_cases a <;> rfl

/-- The body's stored value is the layer's block in the kernel's spelling: the casts of a block to its own shape
    are the identity. -/
theorem pay_eq (v0 : Vec Ideal S2000x256 .f32) (v2 : Vec Ideal S2000x1 .f32) (v7 : Vec Ideal S2000x256 .f32)
    (vWl : Vec Ideal S256x256 .f32) (vWr : Vec Ideal S256x256 .f32) (vbl : Vec Ideal S1x256 .f32) (vbr : Vec Ideal S1x256 .f32) :
    k1_pay1 (F := Ideal) v0 v2 v7 vWl vWr vbl vbr
      = maximumf (kPre dot_S2000x256_S256x256_S2000x256_1_0_0_1_n_n bitsLt_bf16_f32 broadcasts_S2000x1_S2000x256 broadcasts_S1x256_S2000x256 v0 v2 v7 vWl vbl vWr vbr)
          (broadcast S2000x256 (Scalar.ofBits .f32 0x00000000#32)) := by
  unfold k1_pay1
  simp only [shapeCast_self]
  rfl

/-- The body's stored value at (r, q). -/
theorem pay_at (v0 : Vec Ideal S2000x256 .f32) (v2 : Vec Ideal S2000x1 .f32) (v7 : Vec Ideal S2000x256 .f32)
    (vWl : Vec Ideal S256x256 .f32) (vWr : Vec Ideal S256x256 .f32) (vbl : Vec Ideal S1x256 .f32) (vbr : Vec Ideal S1x256 .f32)
    (r : Fin 2000) (q : Fin 256) :
    k1_pay1 (F := Ideal) v0 v2 v7 vWl vWr vbl vbr (ix2 r q) = max (kPreAt v0 v2 v7 vWl vbl vWr vbr r q) zero32 := by
  rw [pay_eq]
  refine (maximumf_apply _ _ _).trans ?_
  refine congrArg₂ (fun a b : EReal => max a b) ?_ rfl
  exact kPre_at _ rfl rfl rfl rfl rfl rfl _ _ _ v0 v2 v7 vWl vbl vWr vbr r q

variable (V : (c : Dev nD) → (b : Ref sig .tc) → Buf (Elt Ideal) ((c : Thread nD τ).loc b))

/-- The layer of the whole arrays the region finds. -/
def G (c : Dev nD) : S50000x256.Idx → EReal :=
  kLayerRelu (N := 50000) (A := 256) (B := 256) (V c main_v41) (V c main_v12) (V c main_v28) (V c main_arg7) (V c main_v42) (V c main_arg9) (V c main_v43)

/-- The printed index maps over the grid: the three row-blocked inputs move with the output, block column 0; the
    weights and bias rows stay at block (0, 0). -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 24 :=
  (by decide +kernel : ∀ t : Fin grid1.N, _)

/-- Every block row is some point's. -/
theorem idx_onto : ∀ q0 : Fin 25, ∃ t : Fin cfg1.N, win1_7.index t = ![q0.val, 0] :=
  (by decide +kernel : ∀ q0 : Fin 25, ∃ t : Fin grid1.N, win1_7.index t = ![q0.val, 0])

/-- WHAT POINT t WRITES BACK is block t of the layer of the whole arrays. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S2000x256) hz, View.ld_unit_zero (S := S2000x1) hz, View.ld_unit_zero (S := S256x256) hz,
    View.ld_unit_zero (S := S1x256) hz]
  obtain ⟨e00, e01, e10, e11, e20, e21, e30, e31, e40, e41, e50, e51, e60, e61, e71, e7⟩ := idx_facts t
  -- the weights' and bias rows' blocks are the whole arrays
  have w3 : iblk1 V c 3 t = V c main_arg7 := by
    funext z
    show V c main_arg7 (((cfg1.win 3).blk t).view.emb z) = V c main_arg7 z
    refine congrArg _ (funext fun a => Fin.ext ?_)
    match a with
    | ⟨0, _⟩ => show win1_3.index t (0 : Fin 2) * 256 + 1 * (z 0).val = (z 0).val; omega
    | ⟨1, _⟩ => show win1_3.index t (1 : Fin 2) * 256 + 1 * (z 1).val = (z 1).val; omega
  have w4 : iblk1 V c 4 t = V c main_v42 := by
    funext z
    show V c main_v42 (((cfg1.win 4).blk t).view.emb z) = V c main_v42 z
    refine congrArg _ (funext fun a => Fin.ext ?_)
    match a with
    | ⟨0, _⟩ => show win1_4.index t (0 : Fin 2) * 1 + 1 * (z 0).val = (z 0).val; omega
    | ⟨1, _⟩ => show win1_4.index t (1 : Fin 2) * 256 + 1 * (z 1).val = (z 1).val; omega
  have w5 : iblk1 V c 5 t = V c main_arg9 := by
    funext z
    show V c main_arg9 (((cfg1.win 5).blk t).view.emb z) = V c main_arg9 z
    refine congrArg _ (funext fun a => Fin.ext ?_)
    match a with
    | ⟨0, _⟩ => show win1_5.index t (0 : Fin 2) * 256 + 1 * (z 0).val = (z 0).val; omega
    | ⟨1, _⟩ => show win1_5.index t (1 : Fin 2) * 256 + 1 * (z 1).val = (z 1).val; omega
  have w6 : iblk1 V c 6 t = V c main_v43 := by
    funext z
    show V c main_v43 (((cfg1.win 6).blk t).view.emb z) = V c main_v43 z
    refine congrArg _ (funext fun a => Fin.ext ?_)
    match a with
    | ⟨0, _⟩ => show win1_6.index t (0 : Fin 2) * 1 + 1 * (z 0).val = (z 0).val; omega
    | ⟨1, _⟩ => show win1_6.index t (1 : Fin 2) * 256 + 1 * (z 1).val = (z 1).val; omega
  rw [w3, w4, w5, w6]
  -- the row-blocked inputs' blocks are rows 2000·t … of their arrays
  have b0 : ∀ (r : Fin 2000) (k : Fin 256) (R : Fin 50000), R.val = win1_7.index t (0 : Fin 2) * 2000 + r.val →
      iblk1 V c 0 t (ix2 r k) = V c main_v41 (ix2 R k) := by
    intro r k R hR
    show V c main_v41 (((cfg1.win 0).blk t).view.emb (ix2 r k)) = V c main_v41 (ix2 R k)
    refine congrArg _ (funext fun a => Fin.ext ?_)
    match a with
    | ⟨0, _⟩ => show win1_0.index t (0 : Fin 2) * 2000 + 1 * r.val = R.val; omega
    | ⟨1, _⟩ => show win1_0.index t (1 : Fin 2) * 256 + 1 * k.val = k.val; omega
  have b1 : ∀ (r : Fin 2000) (R : Fin 50000), R.val = win1_7.index t (0 : Fin 2) * 2000 + r.val →
      iblk1 V c 1 t (ix2 r (0 : Fin 1)) = V c main_v12 (ix2 R (0 : Fin 1)) := by
    intro r R hR
    show V c main_v12 (((cfg1.win 1).blk t).view.emb (ix2 r (0 : Fin 1))) = V c main_v12 (ix2 R (0 : Fin 1))
    refine congrArg _ (funext fun a => Fin.ext ?_)
    match a with
    | ⟨0, _⟩ => show win1_1.index t (0 : Fin 2) * 2000 + 1 * r.val = R.val; omega
    | ⟨1, _⟩ => show win1_1.index t (1 : Fin 2) * 1 + 1 * 0 = 0; omega
  have b2 : ∀ (r : Fin 2000) (k : Fin 256) (R : Fin 50000), R.val = win1_7.index t (0 : Fin 2) * 2000 + r.val →
      iblk1 V c 2 t (ix2 r k) = V c main_v28 (ix2 R k) := by
    intro r k R hR
    show V c main_v28 (((cfg1.win 2).blk t).view.emb (ix2 r k)) = V c main_v28 (ix2 R k)
    refine congrArg _ (funext fun a => Fin.ext ?_)
    match a with
    | ⟨0, _⟩ => show win1_2.index t (0 : Fin 2) * 2000 + 1 * r.val = R.val; omega
    | ⟨1, _⟩ => show win1_2.index t (1 : Fin 2) * 256 + 1 * k.val = k.val; omega
  funext j
  obtain ⟨r, q, rfl⟩ : ∃ (r : Fin 2000) (q : Fin 256), j = ix2 r q := ⟨j 0, j 1, eq_ix2 j⟩
  refine (pay_at (iblk1 V c 0 t) (iblk1 V c 1 t) (iblk1 V c 2 t) (V c main_arg7) (V c main_arg9) (V c main_v42) (V c main_v43) r q).trans ?_
  refine relu_point (N := 50000) (V c main_v41) (V c main_v12) (V c main_v28) (V c main_arg7) (V c main_v42) (V c main_arg9) (V c main_v43)
    (iblk1 V c 0 t) (iblk1 V c 1 t) (iblk1 V c 2 t) (win1_7.index t (0 : Fin 2) * 2000) b0 b1 b2 r q
    (((cfg1.win 7).blk t).view.emb (ix2 r q)) ?_ ?_
  · show win1_7.index t (0 : Fin 2) * 2000 + 1 * r.val = win1_7.index t (0 : Fin 2) * 2000 + r.val; omega
  · show win1_7.index t (1 : Fin 2) * 256 + 1 * q.val = q.val; omega

/-- An index of the result is in point t's block iff each coordinate is in the block's range on its axis. -/
theorem mem_blk (t : Fin cfg1.N) (i : S50000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v44).slice (win1_7.rect t)).set ↔ _
  rw [View.set_slice_whole, Rect.mem_set_unit]
  exact Iff.rfl

/-- The 25 blocks tile the result: row R lies in the block of point R / 2000. -/
theorem cover (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  obtain ⟨t, ht⟩ := idx_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 256 ≤ (i 1).val ∧ (i 1).val < win1_7.index t (1 : Fin 2) * 256 + 256; omega

/-- THE RESULT ARRAY after the region: the layer of the whole arrays the region found. -/
theorem final (c : Dev nD) : (dat1 V c).arrAt 7 cfg1.N = G V c :=
  (dat1 V c).arrAt_eq_of_cover 7 (G V c) (fun t _ => flushed_eq V c t) cover

end Cert.Sage.K1

end
-- ==== Proof.Region2.lean ====
/-
  REGION 2 OF THE KERNEL: WHAT ITS OUTPUT ARRAY HOLDS AFTERWARDS.

  The region runs the layer's body on 25 blocks of 2000 rows. Grid point t fetches rows 2000·t … 2000·t + 1999 of the
  aggregate, of the column of reciprocals and of the features, and the whole of the two weight matrices and of the two
  bias rows, and writes back rows 2000·t … 2000·t + 1999 of the result. The body's stored value at (r, q) is the
  layer's entry of row r of the blocks (`pay_at`), which is the layer's entry (2000·t + r, q) of the whole arrays as
  the region finds them (`flushed_eq`); the 25 blocks tile the result (`cover`); so the result array ends holding the
  layer of the whole arrays (`final`). Stated for any contents `V` of the buffers at the region's entry.
-/
import proofs.«126664_j20968030339124_1_alg».proof.Proof.Gen.KernelIdeal.Frame
import proofs.«126664_j20968030339124_1_alg».proof.Proof.KernelPoint
import Idealize.ShloMosaic.Lib.Pipeline.Value

set_option maxRecDepth 16384

noncomputable section

namespace Cert.Sage.K2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib Cert.Sage

theorem hz : (![0, 0] : Fin 2 → Nat) = fun _ => 0 := funext fun a => by fin_cases a <;> rfl

/-- The body's stored value is the layer's block in the kernel's spelling: the casts of a block to its own shape
    are the identity. -/
theorem pay_eq (v0 : Vec Ideal S2000x256 .f32) (v2 : Vec Ideal S2000x1 .f32) (v7 : Vec Ideal S2000x256 .f32)
    (vWl : Vec Ideal S256x8 .f32) (vWr : Vec Ideal S256x8 .f32) (vbl : Vec Ideal S1x8 .f32) (vbr : Vec Ideal S1x8 .f32) :
    k2_pay1 (F := Ideal) v0 v2 v7 vWl vWr vbl vbr
      = kLsm reduces_S2000x8_S2000 shapeCasts_S2000_S2000x1 broadcasts_S2000x1_S2000x8
          (kPre dot_S2000x256_S256x8_S2000x8_1_0_0_1_n_n bitsLt_bf16_f32 broadcasts_S2000x1_S2000x256 broadcasts_S1x8_S2000x8 v0 v2 v7 vWl vbl vWr vbr) := by
  unfold k2_pay1
  simp only [shapeCast_self]
  rfl

/-- The body's stored value at (r, q). -/
theorem pay_at (v0 : Vec Ideal S2000x256 .f32) (v2 : Vec Ideal S2000x1 .f32) (v7 : Vec Ideal S2000x256 .f32)
    (vWl : Vec Ideal S256x8 .f32) (vWr : Vec Ideal S256x8 .f32) (vbl : Vec Ideal S1x8 .f32) (vbr : Vec Ideal S1x8 .f32)
    (r : Fin 2000) (q : Fin 8) :
    k2_pay1 (F := Ideal) v0 v2 v7 vWl vWr vbl vbr (ix2 r q) = lsmAt (fun p => kPreAt v0 v2 v7 vWl vbl vWr vbr r p) q := by
  rw [pay_eq]
  refine (kLsm_at _ _ _ _ r q).trans ?_
  refine congrArg (fun z : Fin 8 → EReal => lsmAt z q) (funext fun p => ?_)
  exact kPre_at _ rfl rfl rfl rfl rfl rfl _ _ _ v0 v2 v7 vWl vbl vWr vbr r p

variable (V : (c : Dev nD) → (b : Ref sig .tc) → Buf (Elt Ideal) ((c : Thread nD τ).loc b))

/-- The layer of the whole arrays the region finds. -/
def G (c : Dev nD) : S50000x8.Idx → EReal :=
  kLayerLsm (N := 50000) (A := 256) (B := 8) (V c main_v57) (V c main_v12) (V c main_v44) (V c main_arg11) (V c main_v58) (V c main_arg13) (V c main_v59)

/-- The printed index maps over the grid: the three row-blocked inputs move with the output, block column 0; the
    weights and bias rows stay at block (0, 0). -/
theorem idx_facts : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = win2_7.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (1 : Fin 2) = 0 ∧ win2_7.index t (0 : Fin 2) ≤ 24 :=
  (by decide +kernel : ∀ t : Fin grid2.N, _)

/-- Every block row is some point's. -/
theorem idx_onto : ∀ q0 : Fin 25, ∃ t : Fin cfg2.N, win2_7.index t = ![q0.val, 0] :=
  (by decide +kernel : ∀ q0 : Fin 25, ∃ t : Fin grid2.N, win2_7.index t = ![q0.val, 0])

/-- WHAT POINT t WRITES BACK is block t of the layer of the whole arrays. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S2000x256) hz, View.ld_unit_zero (S := S2000x1) hz, View.ld_unit_zero (S := S256x8) hz,
    View.ld_unit_zero (S := S1x8) hz]
  obtain ⟨e00, e01, e10, e11, e20, e21, e30, e31, e40, e41, e50, e51, e60, e61, e71, e7⟩ := idx_facts t
  -- the weights' and bias rows' blocks are the whole arrays
  have w3 : iblk2 V c 3 t = V c main_arg11 := by
    funext z
    show V c main_arg11 (((cfg2.win 3).blk t).view.emb z) = V c main_arg11 z
    refine congrArg _ (funext fun a => Fin.ext ?_)
    match a with
    | ⟨0, _⟩ => show win2_3.index t (0 : Fin 2) * 256 + 1 * (z 0).val = (z 0).val; omega
    | ⟨1, _⟩ => show win2_3.index t (1 : Fin 2) * 8 + 1 * (z 1).val = (z 1).val; omega
  have w4 : iblk2 V c 4 t = V c main_v58 := by
    funext z
    show V c main_v58 (((cfg2.win 4).blk t).view.emb z) = V c main_v58 z
    refine congrArg _ (funext fun a => Fin.ext ?_)
    match a with
    | ⟨0, _⟩ => show win2_4.index t (0 : Fin 2) * 1 + 1 * (z 0).val = (z 0).val; omega
    | ⟨1, _⟩ => show win2_4.index t (1 : Fin 2) * 8 + 1 * (z 1).val = (z 1).val; omega
  have w5 : iblk2 V c 5 t = V c main_arg13 := by
    funext z
    show V c main_arg13 (((cfg2.win 5).blk t).view.emb z) = V c main_arg13 z
    refine congrArg _ (funext fun a => Fin.ext ?_)
    match a with
    | ⟨0, _⟩ => show win2_5.index t (0 : Fin 2) * 256 + 1 * (z 0).val = (z 0).val; omega
    | ⟨1, _⟩ => show win2_5.index t (1 : Fin 2) * 8 + 1 * (z 1).val = (z 1).val; omega
  have w6 : iblk2 V c 6 t = V c main_v59 := by
    funext z
    show V c main_v59 (((cfg2.win 6).blk t).view.emb z) = V c main_v59 z
    refine congrArg _ (funext fun a => Fin.ext ?_)
    match a with
    | ⟨0, _⟩ => show win2_6.index t (0 : Fin 2) * 1 + 1 * (z 0).val = (z 0).val; omega
    | ⟨1, _⟩ => show win2_6.index t (1 : Fin 2) * 8 + 1 * (z 1).val = (z 1).val; omega
  rw [w3, w4, w5, w6]
  -- the row-blocked inputs' blocks are rows 2000·t … of their arrays
  have b0 : ∀ (r : Fin 2000) (k : Fin 256) (R : Fin 50000), R.val = win2_7.index t (0 : Fin 2) * 2000 + r.val →
      iblk2 V c 0 t (ix2 r k) = V c main_v57 (ix2 R k) := by
    intro r k R hR
    show V c main_v57 (((cfg2.win 0).blk t).view.emb (ix2 r k)) = V c main_v57 (ix2 R k)
    refine congrArg _ (funext fun a => Fin.ext ?_)
    match a with
    | ⟨0, _⟩ => show win2_0.index t (0 : Fin 2) * 2000 + 1 * r.val = R.val; omega
    | ⟨1, _⟩ => show win2_0.index t (1 : Fin 2) * 256 + 1 * k.val = k.val; omega
  have b1 : ∀ (r : Fin 2000) (R : Fin 50000), R.val = win2_7.index t (0 : Fin 2) * 2000 + r.val →
      iblk2 V c 1 t (ix2 r (0 : Fin 1)) = V c main_v12 (ix2 R (0 : Fin 1)) := by
    intro r R hR
    show V c main_v12 (((cfg2.win 1).blk t).view.emb (ix2 r (0 : Fin 1))) = V c main_v12 (ix2 R (0 : Fin 1))
    refine congrArg _ (funext fun a => Fin.ext ?_)
    match a with
    | ⟨0, _⟩ => show win2_1.index t (0 : Fin 2) * 2000 + 1 * r.val = R.val; omega
    | ⟨1, _⟩ => show win2_1.index t (1 : Fin 2) * 1 + 1 * 0 = 0; omega
  have b2 : ∀ (r : Fin 2000) (k : Fin 256) (R : Fin 50000), R.val = win2_7.index t (0 : Fin 2) * 2000 + r.val →
      iblk2 V c 2 t (ix2 r k) = V c main_v44 (ix2 R k) := by
    intro r k R hR
    show V c main_v44 (((cfg2.win 2).blk t).view.emb (ix2 r k)) = V c main_v44 (ix2 R k)
    refine congrArg _ (funext fun a => Fin.ext ?_)
    match a with
    | ⟨0, _⟩ => show win2_2.index t (0 : Fin 2) * 2000 + 1 * r.val = R.val; omega
    | ⟨1, _⟩ => show win2_2.index t (1 : Fin 2) * 256 + 1 * k.val = k.val; omega
  funext j
  obtain ⟨r, q, rfl⟩ : ∃ (r : Fin 2000) (q : Fin 8), j = ix2 r q := ⟨j 0, j 1, eq_ix2 j⟩
  refine (pay_at (iblk2 V c 0 t) (iblk2 V c 1 t) (iblk2 V c 2 t) (V c main_arg11) (V c main_arg13) (V c main_v58) (V c main_v59) r q).trans ?_
  refine lsm_point (N := 50000) (V c main_v57) (V c main_v12) (V c main_v44) (V c main_arg11) (V c main_v58) (V c main_arg13) (V c main_v59)
    (iblk2 V c 0 t) (iblk2 V c 1 t) (iblk2 V c 2 t) (win2_7.index t (0 : Fin 2) * 2000) b0 b1 b2 r q
    (((cfg2.win 7).blk t).view.emb (ix2 r q)) ?_ ?_
  · show win2_7.index t (0 : Fin 2) * 2000 + 1 * r.val = win2_7.index t (0 : Fin 2) * 2000 + r.val; omega
  · show win2_7.index t (1 : Fin 2) * 8 + 1 * q.val = q.val; omega

/-- An index of the result is in point t's block iff each coordinate is in the block's range on its axis. -/
theorem mem_blk (t : Fin cfg2.N) (i : S50000x8.Idx) :
    i ∈ ((cfg2.win 7).blk t).view.set ↔ ∀ a : Fin 2, win2_7.index t a * S2000x8.size a ≤ (i a).val
      ∧ (i a).val < win2_7.index t a * S2000x8.size a + S2000x8.size a := by
  show i ∈ ((View.whole main_v60).slice (win2_7.rect t)).set ↔ _
  rw [View.set_slice_whole, Rect.mem_set_unit]
  exact Iff.rfl

/-- The 25 blocks tile the result: row R lies in the block of point R / 2000. -/
theorem cover (i : S50000x8.Idx) :
    ∃ t : Fin cfg2.N, (cfg2.win 7).flush t = true ∧ i ∈ ((cfg2.win 7).blk t).view.set := by
  have hi0 : (i 0).val < 50000 := (i 0).isLt
  have hi1 : (i 1).val < 8 := (i 1).isLt
  obtain ⟨t, ht⟩ := idx_onto ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 8 ≤ (i 1).val ∧ (i 1).val < win2_7.index t (1 : Fin 2) * 8 + 8; omega

/-- THE RESULT ARRAY after the region: the layer of the whole arrays the region found. -/
theorem final (c : Dev nD) : (dat2 V c).arrAt 7 cfg2.N = G V c :=
  (dat2 V c).arrAt_eq_of_cover 7 (G V c) (fun t _ => flushed_eq V c t) cover

end Cert.Sage.K2

end
-- ==== Proof.KernelFold.lean ====
/-
  THE KERNEL'S RESULT, FOLDED THROUGH ITS THREE REGIONS.

  The kernel's @main alternates stretches of host operations with the three layer regions. The buffer contents at each
  boundary are a fold (`W0` … `W6` of the generated frame). Here the few buffers that matter are read at every
  boundary, in order, each down to a final value:

  * the host stretch before a region leaves, in that region's aggregate buffer, the scatter-add of the gathered and
    weighted current features — the very term the reference's stage function is — and (the first stretch only) the
    column of reciprocals 1 / max(cnt, 1) and the index rows; it recasts two bias vectors to rows;
  * a region leaves, in its result buffer, the layer of the arrays it found (the three region modules), which, the
    column of reciprocals and the bias rows being what they are, is the specification's layer — multiplying by the
    reciprocal of the clamped degree is dividing by it — and therefore the reference's stage function, once the
    reference's three layers are known to be the specification's (`L0`, `L1`, `L2`, hypotheses here);
  * everything else a stretch or a region does not write is carried along unchanged.

  At the end the kernel's result buffer holds the reference's stage function of the fifteen arguments.
-/
import proofs.«126664_j20968030339124_1_alg».proof.Proof.Region0
import proofs.«126664_j20968030339124_1_alg».proof.Proof.Region1
import proofs.«126664_j20968030339124_1_alg».proof.Proof.Region2
import proofs.«126664_j20968030339124_1_alg».proof.Proof.RefRead

set_option maxRecDepth 16384

noncomputable section

namespace Cert.Sage.Fold

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Lib Cert.Sage
open Cert.ReferenceIdeal.ReadP (val_main_v1 val_main_v3 val_main_v16 val_main_v20 val_main_v35 val_main_v48 val_main_v52 val_main_v67
  val_main_v80 val_main_v84 val_main_v99)

variable (m : (ℓ : Loc nD τ sig) → Buf (Elt Ideal) ℓ) (ρ : Dev nD → PrngReg) (c : Dev nD)

/-- The column of reciprocals, as the first stretch leaves it: a name, so that later steps carry it unopened. -/
def invCol : S50000x1.Idx → EReal := W1 m ρ c (Proc.devRef .tc main_v12)

/-! ## After the first stretch of host operations -/

theorem w1_inv : W1 m ρ c (Proc.devRef .tc main_v12) = invCol m ρ c := rfl
theorem w1_v25 : W1 m ρ c (Proc.devRef .tc main_v25) = val_main_v16 (F := Ideal) (m ((c : Thread nD τ).loc main_arg0)) (m ((c : Thread nD τ).loc main_arg1)) (m ((c : Thread nD τ).loc main_arg2)) := by
  show StableHlo.after hostOps0 (W0 m ρ c) (Proc.devRef .tc main_v25) = _
  after_results_simp <;> rfl
theorem w1_v1 : W1 m ρ c (Proc.devRef .tc main_v1) = val_main_v1 (F := Ideal) (m ((c : Thread nD τ).loc main_arg1)) := by
  show StableHlo.after hostOps0 (W0 m ρ c) (Proc.devRef .tc main_v1) = _
  after_results_simp <;> rfl
theorem w1_v3 : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
/-- The column of reciprocals: 1 / max(cnt, 1), recast from a vector to a column. -/
theorem inv_eq : invCol m ρ c
    = shapeCast S50000x1 (Host.divf (broadcastInDim S50000 ![] bcast_S_S50000 (constant (F := Ideal) S_ .f32 0x3F800000#32))
        (maximumf (val_main_v20 (F := Ideal) (m ((c : Thread nD τ).loc main_arg1))) (broadcastInDim S50000 ![] bcast_S_S50000 (constant (F := Ideal) S_ .f32 0x3F800000#32))))
        shapeCasts_S50000_S50000x1 := by
  unfold invCol
  show StableHlo.after hostOps0 (W0 m ρ c) (Proc.devRef .tc main_v12) = _
  after_results_simp <;> rfl
theorem w1_v26 : W1 m ρ c (Proc.devRef .tc main_v26) = shapeCast S1x256 (m ((c : Thread nD τ).loc main_arg4)) shapeCasts_S256_S1x256 := by
  show StableHlo.after hostOps0 (W0 m ρ c) (Proc.devRef .tc main_v26) = _
  after_results_simp <;> rfl
theorem w1_v27 : W1 m ρ c (Proc.devRef .tc main_v27) = shapeCast S1x256 (m ((c : Thread nD τ).loc main_arg6)) shapeCasts_S256_S1x256 := by
  show StableHlo.after hostOps0 (W0 m ρ c) (Proc.devRef .tc main_v27) = _
  after_results_simp <;> rfl
theorem w1_arg0 : W1 m ρ c (Proc.devRef .tc main_arg0) = (m ((c : Thread nD τ).loc main_arg0)) := by
  show StableHlo.after hostOps0 (W0 m ρ c) (Proc.devRef .tc main_arg0) = _
  after_results_simp <;> rfl
theorem w1_arg2 : W1 m ρ c (Proc.devRef .tc main_arg2) = (m ((c : Thread nD τ).loc main_arg2)) := by
  show StableHlo.after hostOps0 (W0 m ρ c) (Proc.devRef .tc main_arg2) = _
  after_results_simp <;> rfl
theorem w1_arg3 : W1 m ρ c (Proc.devRef .tc main_arg3) = (m ((c : Thread nD τ).loc main_arg3)) := by
  show StableHlo.after hostOps0 (W0 m ρ c) (Proc.devRef .tc main_arg3) = _
  after_results_simp <;> rfl
theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w1_arg7 : W1 m ρ c (Proc.devRef .tc main_arg7) = (m ((c : Thread nD τ).loc main_arg7)) := by
  show StableHlo.after hostOps0 (W0 m ρ c) (Proc.devRef .tc main_arg7) = _
  after_results_simp <;> rfl
theorem w1_arg8 : W1 m ρ c (Proc.devRef .tc main_arg8) = (m ((c : Thread nD τ).loc main_arg8)) := by
  show StableHlo.after hostOps0 (W0 m ρ c) (Proc.devRef .tc main_arg8) = _
  after_results_simp <;> rfl
theorem w1_arg9 : W1 m ρ c (Proc.devRef .tc main_arg9) = (m ((c : Thread nD τ).loc main_arg9)) := by
  show StableHlo.after hostOps0 (W0 m ρ c) (Proc.devRef .tc main_arg9) = _
  after_results_simp <;> rfl
theorem w1_arg10 : W1 m ρ c (Proc.devRef .tc main_arg10) = (m ((c : Thread nD τ).loc main_arg10)) := by
  show StableHlo.after hostOps0 (W0 m ρ c) (Proc.devRef .tc main_arg10) = _
  after_results_simp <;> rfl
theorem w1_arg11 : W1 m ρ c (Proc.devRef .tc main_arg11) = (m ((c : Thread nD τ).loc main_arg11)) := by
  show StableHlo.after hostOps0 (W0 m ρ c) (Proc.devRef .tc main_arg11) = _
  after_results_simp <;> rfl
theorem w1_arg12 : W1 m ρ c (Proc.devRef .tc main_arg12) = (m ((c : Thread nD τ).loc main_arg12)) := by
  show StableHlo.after hostOps0 (W0 m ρ c) (Proc.devRef .tc main_arg12) = _
  after_results_simp <;> rfl
theorem w1_arg13 : W1 m ρ c (Proc.devRef .tc main_arg13) = (m ((c : Thread nD τ).loc main_arg13)) := by
  show StableHlo.after hostOps0 (W0 m ρ c) (Proc.devRef .tc main_arg13) = _
  after_results_simp <;> rfl
theorem w1_arg14 : W1 m ρ c (Proc.devRef .tc main_arg14) = (m ((c : Thread nD τ).loc main_arg14)) := by
  show StableHlo.after hostOps0 (W0 m ρ c) (Proc.devRef .tc main_arg14) = _
  after_results_simp <;> rfl

/-- A host quotient of two arrays, at an entry. -/
theorem hostDivf_at {s : Shape} {φ : FTy} (a b : FVec Ideal s φ) (i : s.Idx) : Host.divf a b i = Ideal.div (a i) (b i) := rfl

/-- The column of reciprocals at row r. -/
theorem inv_at (r : Fin 50000) :
    invCol m ρ c (ix2 r (0 : Fin 1)) = Ideal.div one32 (max (val_main_v20 (F := Ideal) (m ((c : Thread nD τ).loc main_arg1)) (ix1 r)) one32) := by
  rw [inv_eq]
  refine (shapeCast_a_a1_apply _ shapeCasts_S50000_S50000x1 r (0 : Fin 1)).trans ?_
  refine (hostDivf_at _ _ _).trans ?_
  refine congrArg₂ Ideal.div (bcast_const_apply _ _ _) ?_
  refine (maximumf_apply _ _ _).trans ?_
  exact congrArg (fun o : EReal => max (val_main_v20 (F := Ideal) (m ((c : Thread nD τ).loc main_arg1)) (ix1 r)) o) (bcast_const_apply _ _ _)

/-- The reference computes the in-degree afresh in every layer: the same array each time. -/
theorem cnt52 (x1 : (⟨Cert.ReferenceIdeal.S2x800000, .i32⟩ : BufTy).Contents (Elt Ideal)) :
    val_main_v52 (F := Ideal) x1 = val_main_v20 (F := Ideal) x1 := rfl
theorem cnt84 (x1 : (⟨Cert.ReferenceIdeal.S2x800000, .i32⟩ : BufTy).Contents (Elt Ideal)) :
    val_main_v84 (F := Ideal) x1 = val_main_v20 (F := Ideal) x1 := rfl

/-! ## Region 0 -/

variable (L0 : ∀ x0 x1 x2 x3 x4 x5 x6, val_main_v35 (F := Ideal) x0 x1 x2 x3 x4 x5 x6
    = layerRelu (N := 50000) (A := 128) (B := 256) (val_main_v16 (F := Ideal) x0 x1 x2) (val_main_v20 (F := Ideal) x1) x0 x3 x4 x5 x6)

include L0 in
/-- Region 0's result buffer holds the reference's first hidden features. -/
theorem w2_v28 : W2 m ρ c (Proc.devRef .tc main_v28) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 7).trans ((K0.final (V1 m ρ) c).trans ?_)
  rw [L0]
  show kLayerRelu (N := 50000) (A := 128) (B := 256) (W1 m ρ c (Proc.devRef .tc main_v25)) (W1 m ρ c (Proc.devRef .tc main_v12)) (W1 m ρ c (Proc.devRef .tc main_arg0))
      (W1 m ρ c (Proc.devRef .tc main_arg3)) (W1 m ρ c (Proc.devRef .tc main_v26)) (W1 m ρ c (Proc.devRef .tc main_arg5)) (W1 m ρ c (Proc.devRef .tc main_v27)) = _
  rw [w1_v25, w1_inv, w1_arg0, w1_arg3, w1_v26, w1_arg5, w1_v27]
  refine kLayerRelu_spec (N := 50000) (A := 128) (B := 256) _ (val_main_v20 (F := Ideal) (m ((c : Thread nD τ).loc main_arg1))) _ _ (m ((c : Thread nD τ).loc main_arg4)) _ (m ((c : Thread nD τ).loc main_arg6)) _ _ _ (inv_at m ρ c) ?_ ?_
  · intro q; exact shapeCast_a_1a_apply _ shapeCasts_S256_S1x256 (0 : Fin 1) q
  · intro q; exact shapeCast_a_1a_apply _ shapeCasts_S256_S1x256 (0 : Fin 1) q

/-- Region 0 reads the column of reciprocals and leaves it in place. -/
theorem w2_v12 : W2 m ρ c (Proc.devRef .tc main_v12) = invCol m ρ c :=
  ((W2_arr m ρ c 1).trans (((dat0 (V1 m ρ) c).arrAt_in 1 rfl _).trans (A_eq0 (V1 m ρ) c 1))).trans (w1_inv m ρ c)
theorem w2_v1 : W2 m ρ c (Proc.devRef .tc main_v1) = val_main_v1 (F := Ideal) (m ((c : Thread nD τ).loc main_arg1)) := (W2_of_ne m ρ c main_v1 (by decide)).trans (w1_v1 m ρ c)
theorem w2_v3 : W2 m ρ c (Proc.devRef .tc main_v3) = val_main_v3 (F := Ideal) (m ((c : Thread nD τ).loc main_arg1)) := (W2_of_ne m ρ c main_v3 (by decide)).trans (w1_v3 m ρ c)
theorem w2_arg2 : W2 m ρ c (Proc.devRef .tc main_arg2) = (m ((c : Thread nD τ).loc main_arg2)) := (W2_of_ne m ρ c main_arg2 (by decide)).trans (w1_arg2 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_arg11 : W2 m ρ c (Proc.devRef .tc main_arg11) = (m ((c : Thread nD τ).loc main_arg11)) := (W2_of_ne m ρ c main_arg11 (by decide)).trans (w1_arg11 m ρ c)
theorem w2_arg12 : W2 m ρ c (Proc.devRef .tc main_arg12) = (m ((c : Thread nD τ).loc main_arg12)) := (W2_of_ne m ρ c main_arg12 (by decide)).trans (w1_arg12 m ρ c)
theorem w2_arg13 : W2 m ρ c (Proc.devRef .tc main_arg13) = (m ((c : Thread nD τ).loc main_arg13)) := (W2_of_ne m ρ c main_arg13 (by decide)).trans (w1_arg13 m ρ c)
theorem w2_arg14 : W2 m ρ c (Proc.devRef .tc main_arg14) = (m ((c : Thread nD τ).loc main_arg14)) := (W2_of_ne m ρ c main_arg14 (by decide)).trans (w1_arg14 m ρ c)

/-! ## After the second stretch -/

include L0 in
theorem w3_v41 : W3 m ρ c (Proc.devRef .tc main_v41) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v41) = _
  after_results_simp
  rw [w2_v28 m ρ c L0, w2_v1, w2_v3, w2_arg2]
  rfl
include L0 in
theorem w3_v28 : W3 m ρ c (Proc.devRef .tc main_v28) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (show StableHlo.after hostOps1 (W2 m ρ c) (Proc.devRef .tc main_v28) = W2 m ρ c (Proc.devRef .tc main_v28) by after_results_simp).trans (w2_v28 m ρ c L0)
theorem w3_v12 : W3 m ρ c (Proc.devRef .tc main_v12) = invCol m ρ c :=
  (show StableHlo.after hostOps1 (W2 m ρ c) (Proc.devRef .tc main_v12) = W2 m ρ c (Proc.devRef .tc main_v12) by after_results_simp).trans (w2_v12 m ρ c)
theorem w3_v42 : W3 m ρ c (Proc.devRef .tc main_v42) = shapeCast S1x256 (m ((c : Thread nD τ).loc main_arg8)) shapeCasts_S256_S1x256 := by
  show StableHlo.after hostOps1 (W2 m ρ c) (Proc.devRef .tc main_v42) = _
  after_results_simp
  rw [w2_arg8]
  rfl
theorem w3_v43 : W3 m ρ c (Proc.devRef .tc main_v43) = shapeCast S1x256 (m ((c : Thread nD τ).loc main_arg10)) shapeCasts_S256_S1x256 := by
  show StableHlo.after hostOps1 (W2 m ρ c) (Proc.devRef .tc main_v43) = _
  after_results_simp
  rw [w2_arg10]
  rfl
theorem w3_v1 : W3 m ρ c (Proc.devRef .tc main_v1) = val_main_v1 (F := Ideal) (m ((c : Thread nD τ).loc main_arg1)) :=
  (show StableHlo.after hostOps1 (W2 m ρ c) (Proc.devRef .tc main_v1) = W2 m ρ c (Proc.devRef .tc main_v1) by after_results_simp).trans (w2_v1 m ρ c)
theorem w3_v3 : W3 m ρ c (Proc.devRef .tc main_v3) = val_main_v3 (F := Ideal) (m ((c : Thread nD τ).loc main_arg1)) :=
  (show StableHlo.after hostOps1 (W2 m ρ c) (Proc.devRef .tc main_v3) = W2 m ρ c (Proc.devRef .tc main_v3) by after_results_simp).trans (w2_v3 m ρ c)
theorem w3_arg2 : W3 m ρ c (Proc.devRef .tc main_arg2) = (m ((c : Thread nD τ).loc main_arg2)) :=
  (show StableHlo.after hostOps1 (W2 m ρ c) (Proc.devRef .tc main_arg2) = W2 m ρ c (Proc.devRef .tc main_arg2) by after_results_simp).trans (w2_arg2 m ρ c)
theorem w3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by after_results_simp).trans (w2_arg7 m ρ c)
theorem w3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results_simp).trans (w2_arg9 m ρ c)
theorem w3_arg11 : W3 m ρ c (Proc.devRef .tc main_arg11) = (m ((c : Thread nD τ).loc main_arg11)) :=
  (show StableHlo.after hostOps1 (W2 m ρ c) (Proc.devRef .tc main_arg11) = W2 m ρ c (Proc.devRef .tc main_arg11) by after_results_simp).trans (w2_arg11 m ρ c)
theorem w3_arg12 : W3 m ρ c (Proc.devRef .tc main_arg12) = (m ((c : Thread nD τ).loc main_arg12)) :=
  (show StableHlo.after hostOps1 (W2 m ρ c) (Proc.devRef .tc main_arg12) = W2 m ρ c (Proc.devRef .tc main_arg12) by after_results_simp).trans (w2_arg12 m ρ c)
theorem w3_arg13 : W3 m ρ c (Proc.devRef .tc main_arg13) = (m ((c : Thread nD τ).loc main_arg13)) :=
  (show StableHlo.after hostOps1 (W2 m ρ c) (Proc.devRef .tc main_arg13) = W2 m ρ c (Proc.devRef .tc main_arg13) by after_results_simp).trans (w2_arg13 m ρ c)
theorem w3_arg14 : W3 m ρ c (Proc.devRef .tc main_arg14) = (m ((c : Thread nD τ).loc main_arg14)) :=
  (show StableHlo.after hostOps1 (W2 m ρ c) (Proc.devRef .tc main_arg14) = W2 m ρ c (Proc.devRef .tc main_arg14) by after_results_simp).trans (w2_arg14 m ρ c)

/-! ## Region 1 -/

variable (L1 : ∀ x0 x1 x2 x3 x4 x5 x6 x7 x8 x9 x10, val_main_v67 (F := Ideal) x0 x1 x2 x3 x4 x5 x6 x7 x8 x9 x10
    = layerRelu (N := 50000) (A := 256) (B := 256) (val_main_v48 (F := Ideal) x0 x1 x2 x3 x4 x5 x6) (val_main_v52 (F := Ideal) x1)
        (val_main_v35 (F := Ideal) x0 x1 x2 x3 x4 x5 x6) x7 x8 x9 x10)

include L0 L1 in
/-- Region 1's result buffer holds the reference's second hidden features. -/
theorem w4_v44 : W4 m ρ c (Proc.devRef .tc main_v44) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 7).trans ((K1.final (V3 m ρ) c).trans ?_)
  rw [L1]
  show kLayerRelu (N := 50000) (A := 256) (B := 256) (W3 m ρ c (Proc.devRef .tc main_v41)) (W3 m ρ c (Proc.devRef .tc main_v12)) (W3 m ρ c (Proc.devRef .tc main_v28))
      (W3 m ρ c (Proc.devRef .tc main_arg7)) (W3 m ρ c (Proc.devRef .tc main_v42)) (W3 m ρ c (Proc.devRef .tc main_arg9)) (W3 m ρ c (Proc.devRef .tc main_v43)) = _
  rw [w3_v41 m ρ c L0, w3_v12, w3_v28 m ρ c L0, w3_arg7, w3_v42, w3_arg9, w3_v43]
  refine kLayerRelu_spec (N := 50000) (A := 256) (B := 256) _ (val_main_v52 (F := Ideal) (m ((c : Thread nD τ).loc main_arg1))) _ _ (m ((c : Thread nD τ).loc main_arg8)) _ (m ((c : Thread nD τ).loc main_arg10)) _ _ _ ?_ ?_ ?_
  · intro r; rw [cnt52]; exact inv_at m ρ c r
  · intro q; exact shapeCast_a_1a_apply _ shapeCasts_S256_S1x256 (0 : Fin 1) q
  · intro q; exact shapeCast_a_1a_apply _ shapeCasts_S256_S1x256 (0 : Fin 1) q

theorem w4_v12 : W4 m ρ c (Proc.devRef .tc main_v12) = invCol m ρ c :=
  ((W4_arr m ρ c 1).trans (((dat1 (V3 m ρ) c).arrAt_in 1 rfl _).trans (A_eq1 (V3 m ρ) c 1))).trans (w3_v12 m ρ c)
theorem w4_v1 : W4 m ρ c (Proc.devRef .tc main_v1) = val_main_v1 (F := Ideal) (m ((c : Thread nD τ).loc main_arg1)) := (W4_of_ne m ρ c main_v1 (by decide)).trans (w3_v1 m ρ c)
theorem w4_v3 : W4 m ρ c (Proc.devRef .tc main_v3) = val_main_v3 (F := Ideal) (m ((c : Thread nD τ).loc main_arg1)) := (W4_of_ne m ρ c main_v3 (by decide)).trans (w3_v3 m ρ c)
theorem w4_arg2 : W4 m ρ c (Proc.devRef .tc main_arg2) = (m ((c : Thread nD τ).loc main_arg2)) := (W4_of_ne m ρ c main_arg2 (by decide)).trans (w3_arg2 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)
theorem w4_arg13 : W4 m ρ c (Proc.devRef .tc main_arg13) = (m ((c : Thread nD τ).loc main_arg13)) := (W4_of_ne m ρ c main_arg13 (by decide)).trans (w3_arg13 m ρ c)
theorem w4_arg14 : W4 m ρ c (Proc.devRef .tc main_arg14) = (m ((c : Thread nD τ).loc main_arg14)) := (W4_of_ne m ρ c main_arg14 (by decide)).trans (w3_arg14 m ρ c)

/-! ## After the third stretch -/

include L0 L1 in
theorem w5_v57 : W5 m ρ c (Proc.devRef .tc main_v57) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v57) = _
  after_results_simp
  rw [w4_v44 m ρ c L0 L1, w4_v1, w4_v3, w4_arg2]
  rfl
include L0 L1 in
theorem w5_v44 : W5 m ρ c (Proc.devRef .tc main_v44) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (show StableHlo.after hostOps2 (W4 m ρ c) (Proc.devRef .tc main_v44) = W4 m ρ c (Proc.devRef .tc main_v44) by after_results_simp).trans (w4_v44 m ρ c L0 L1)
theorem w5_v12 : W5 m ρ c (Proc.devRef .tc main_v12) = invCol m ρ c :=
  (show StableHlo.after hostOps2 (W4 m ρ c) (Proc.devRef .tc main_v12) = W4 m ρ c (Proc.devRef .tc main_v12) by after_results_simp).trans (w4_v12 m ρ c)
theorem w5_v58 : W5 m ρ c (Proc.devRef .tc main_v58) = shapeCast S1x8 (m ((c : Thread nD τ).loc main_arg12)) shapeCasts_S8_S1x8 := by
  show StableHlo.after hostOps2 (W4 m ρ c) (Proc.devRef .tc main_v58) = _
  after_results_simp
  rw [w4_arg12]
  rfl
theorem w5_v59 : W5 m ρ c (Proc.devRef .tc main_v59) = shapeCast S1x8 (m ((c : Thread nD τ).loc main_arg14)) shapeCasts_S8_S1x8 := by
  show StableHlo.after hostOps2 (W4 m ρ c) (Proc.devRef .tc main_v59) = _
  after_results_simp
  rw [w4_arg14]
  rfl
theorem w5_arg11 : W5 m ρ c (Proc.devRef .tc main_arg11) = (m ((c : Thread nD τ).loc main_arg11)) :=
  (show StableHlo.after hostOps2 (W4 m ρ c) (Proc.devRef .tc main_arg11) = W4 m ρ c (Proc.devRef .tc main_arg11) by after_results_simp).trans (w4_arg11 m ρ c)
theorem w5_arg13 : W5 m ρ c (Proc.devRef .tc main_arg13) = (m ((c : Thread nD τ).loc main_arg13)) :=
  (show StableHlo.after hostOps2 (W4 m ρ c) (Proc.devRef .tc main_arg13) = W4 m ρ c (Proc.devRef .tc main_arg13) by after_results_simp).trans (w4_arg13 m ρ c)

/-! ## Region 2 -/

variable (L2 : ∀ x0 x1 x2 x3 x4 x5 x6 x7 x8 x9 x10 x11 x12 x13 x14,
    val_main_v99 (F := Ideal) x0 x1 x2 x3 x4 x5 x6 x7 x8 x9 x10 x11 x12 x13 x14
    = layerLsm (N := 50000) (A := 256) (B := 8) (val_main_v80 (F := Ideal) x0 x1 x2 x3 x4 x5 x6 x7 x8 x9 x10) (val_main_v84 (F := Ideal) x1)
        (val_main_v67 (F := Ideal) x0 x1 x2 x3 x4 x5 x6 x7 x8 x9 x10) x11 x12 x13 x14)

include L0 L1 L2 in
/-- THE KERNEL'S RESULT: region 2's result buffer holds the reference's stage function of the fifteen arguments. -/
theorem w6_v60 : W6 m ρ c (Proc.devRef .tc main_v60) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 7).trans ((K2.final (V5 m ρ) c).trans ?_)
  rw [L2]
  show kLayerLsm (N := 50000) (A := 256) (B := 8) (W5 m ρ c (Proc.devRef .tc main_v57)) (W5 m ρ c (Proc.devRef .tc main_v12)) (W5 m ρ c (Proc.devRef .tc main_v44))
      (W5 m ρ c (Proc.devRef .tc main_arg11)) (W5 m ρ c (Proc.devRef .tc main_v58)) (W5 m ρ c (Proc.devRef .tc main_arg13)) (W5 m ρ c (Proc.devRef .tc main_v59)) = _
  rw [w5_v57 m ρ c L0 L1, w5_v12, w5_v44 m ρ c L0 L1, w5_arg11, w5_v58, w5_arg13, w5_v59]
  refine kLayerLsm_spec (N := 50000) (A := 256) (B := 8) _ (val_main_v84 (F := Ideal) (m ((c : Thread nD τ).loc main_arg1))) _ _ (m ((c : Thread nD τ).loc main_arg12)) _ (m ((c : Thread nD τ).loc main_arg14)) _ _ _ ?_ ?_ ?_
  · intro r; rw [cnt84]; exact inv_at m ρ c r
  · intro q; exact shapeCast_a_1a_apply _ shapeCasts_S8_S1x8 (0 : Fin 1) q
  · intro q; exact shapeCast_a_1a_apply _ shapeCasts_S8_S1x8 (0 : Fin 1) q

end Cert.Sage.Fold

end
-- ==== Proof.LibCallCast.lean ====
/-
  A VALUE STORED IN A CALLED FUNCTION'S BUFFER AND READ BACK. A host program's func.call prints its body's operations
  over typed references: each operation carries its operands from the buffers' own types to the values' types and
  its result back (TRef.ofBuf, TRef.toBuf: transports along the reference's type equation). Carried to the buffer's
  type and back, a value is unchanged, whatever the reference: the equation is eliminated, so no buffer is looked
  up. Rewriting with this lemma collapses every inner pair of transports in a stretch of a called function's
  operations read over an opaque valuation; what is left is one transport at the stretch's result and one at each
  buffer it starts from, each closed by rfl over a VARIABLE of the value's type (a closed term of some size under a
  transport makes rfl unfold the term instead of the transport).
-/
import Idealize.ShloMosaic.Lib.StableHlo

noncomputable section

namespace Cert.Lib

open Idealize.ShloMosaic Idealize.ShloMosaic.StableHlo

/-- Contents carried to a buffer's own type and back are unchanged. -/
theorem ofBuf_toBuf {sig : RefSig} {Val : EltTy → Type} {T : BufTy} (x : TRef sig T) (v : T.Contents Val) :
    x.ofBuf (x.toBuf v) = v := by
  obtain ⟨ref, rfl, od, us⟩ := x
  rfl

/-- Contents of a buffer carried to the value's type and back are unchanged. -/
theorem toBuf_ofBuf {sig : RefSig} {Val : EltTy → Type} {T : BufTy} (x : TRef sig T) (v : x.ref.ty.Contents Val) :
    x.toBuf (x.ofBuf v) = v := by
  obtain ⟨ref, rfl, od, us⟩ := x
  rfl

end Cert.Lib

end
-- ==== Proof.RefFold.lean ====
/-
  THE REFERENCE'S RESULT, READ A STRETCH AT A TIME.

  The reference's @main is a straight line of 136 host operations; what a buffer holds afterwards is the fold of the
  operations' results over the launch contents. The line is three layers one after the other, and each layer ends in a
  called function's body (max(·, 0) twice, the log-softmax once). Six stretches, then. From ANY contents:

  * a layer's plain stretch leaves, in the buffer before the call, the layer's pre-activation stage function of the
    arguments — provided the contents it starts from hold the previous layer's output and the two index rows at their
    stage functions and the arguments it reads;
  * a call's body leaves, in the layer's output buffer, max(y, 0) (or the log-softmax of y) of whatever value y its input
    buffer holds: its operations carry each value to the called function's typed buffers and back, and carried there
    and back a value is unchanged;
  * what a stretch does not write it leaves alone.

  Chained, the result buffer holds the reference's last stage function of the fifteen arguments.
-/
import proofs.«126664_j20968030339124_1_alg».proof.Proof.RefRun
import proofs.«126664_j20968030339124_1_alg».proof.Proof.RefRead
import proofs.«126664_j20968030339124_1_alg».proof.Proof.LibCallCast

set_option maxRecDepth 16384

noncomputable section

namespace Cert.Sage.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Cert.Lib

/-! ## The called functions' bodies, as functions of their input -/

/-- max(y, 0) over the hidden features, in the host's spelling. -/
def reluHost (y : (⟨S50000x256, .f32⟩ : BufTy).Contents (Elt Ideal)) : (⟨S50000x256, .f32⟩ : BufTy).Contents (Elt Ideal) :=
  maximumf y (broadcastInDim S50000x256 ![] bcast_S_S50000x256 (constant (F := Ideal) S_ .f32 0x00000000#32))

/-- The row's largest entry, folded from minus infinity and taken against minus infinity once more, spread back over the row. -/
def rowMaxHost (y : (⟨S50000x8, .f32⟩ : BufTy).Contents (Elt Ideal)) : (⟨S50000x8, .f32⟩ : BufTy).Contents (Elt Ideal) :=
  broadcastInDim S50000x8 ![0, 1] bcast_S50000x1_S50000x8_0_1 (broadcastInDim S50000x1 ![0] bcast_S50000_S50000x1_0
    (maximumf (broadcastInDim S50000 ![] bcast_S_S50000 (constant (F := Ideal) S_ .f32 0xFF800000#32))
      (Host.reduce FloatOps.maximumf y (constant (F := Ideal) S_ .f32 0xFF800000#32) reducesTo_S50000x8_S50000_d1 h_S_)))

/-- The log-softmax along the rows, in the host's spelling. -/
def lsmHost (y : (⟨S50000x8, .f32⟩ : BufTy).Contents (Elt Ideal)) : (⟨S50000x8, .f32⟩ : BufTy).Contents (Elt Ideal) :=
  subf (subf y (rowMaxHost y)) (broadcastInDim S50000x8 ![0, 1] bcast_S50000x1_S50000x8_0_1 (Host.log
    (broadcastInDim S50000x1 ![0] bcast_S50000_S50000x1_0 (Host.reduceAdd (Host.exp (subf y (rowMaxHost y)))
      (constant (F := Ideal) S_ .f32 0x00000000#32) reducesTo_S50000x8_S50000_d1 h_S_))))

theorem v35_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256, .f32⟩ : BufTy).Contents (Elt Ideal)) : val_main_v35 (F := Ideal) x0 x1 x2 x3 x4 x5 x6 = reluHost (val_main_v34 (F := Ideal) x0 x1 x2 x3 x4 x5 x6) := rfl
theorem v67_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) : val_main_v67 (F := Ideal) x0 x1 x2 x3 x4 x5 x6 x7 x8 x9 x10 = reluHost (val_main_v66 (F := Ideal) x0 x1 x2 x3 x4 x5 x6 x7 x8 x9 x10) := rfl
theorem v99_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x8, .f32⟩ : BufTy).Contents (Elt Ideal)) (x12 : (⟨S8, .f32⟩ : BufTy).Contents (Elt Ideal)) (x13 : (⟨S256x8, .f32⟩ : BufTy).Contents (Elt Ideal)) (x14 : (⟨S8, .f32⟩ : BufTy).Contents (Elt Ideal)) : val_main_v99 (F := Ideal) x0 x1 x2 x3 x4 x5 x6 x7 x8 x9 x10 x11 x12 x13 x14 = lsmHost (val_main_v98 (F := Ideal) x0 x1 x2 x3 x4 x5 x6 x7 x8 x9 x10 x11 x12 x13 x14) := rfl

variable (W : Valuation τ sig (Elt Ideal))

/-! ## What each stretch leaves alone -/

theorem A1_keep_arg2 : after opsA1 W (Proc.devRef .tc main_arg2) = W (Proc.devRef .tc main_arg2) := by
  after_results_simp
theorem A1_keep_arg7 : after opsA1 W (Proc.devRef .tc main_arg7) = W (Proc.devRef .tc main_arg7) := by
  after_results_simp
theorem A1_keep_arg8 : after opsA1 W (Proc.devRef .tc main_arg8) = W (Proc.devRef .tc main_arg8) := by
  after_results_simp
theorem A1_keep_arg9 : after opsA1 W (Proc.devRef .tc main_arg9) = W (Proc.devRef .tc main_arg9) := by
  after_results_simp
theorem A1_keep_arg10 : after opsA1 W (Proc.devRef .tc main_arg10) = W (Proc.devRef .tc main_arg10) := by
  after_results_simp
theorem A1_keep_arg11 : after opsA1 W (Proc.devRef .tc main_arg11) = W (Proc.devRef .tc main_arg11) := by
  after_results_simp
theorem A1_keep_arg12 : after opsA1 W (Proc.devRef .tc main_arg12) = W (Proc.devRef .tc main_arg12) := by
  after_results_simp
theorem A1_keep_arg13 : after opsA1 W (Proc.devRef .tc main_arg13) = W (Proc.devRef .tc main_arg13) := by
  after_results_simp
theorem A1_keep_arg14 : after opsA1 W (Proc.devRef .tc main_arg14) = W (Proc.devRef .tc main_arg14) := by
  after_results_simp
theorem A2_keep_v1 : after opsA2 W (Proc.devRef .tc main_v1) = W (Proc.devRef .tc main_v1) := by
  after_results_simp
theorem A2_keep_v3 : after opsA2 W (Proc.devRef .tc main_v3) = W (Proc.devRef .tc main_v3) := by
  after_results_simp
theorem A2_keep_arg2 : after opsA2 W (Proc.devRef .tc main_arg2) = W (Proc.devRef .tc main_arg2) := by
  after_results_simp
theorem A2_keep_arg7 : after opsA2 W (Proc.devRef .tc main_arg7) = W (Proc.devRef .tc main_arg7) := by
  after_results_simp
theorem A2_keep_arg8 : after opsA2 W (Proc.devRef .tc main_arg8) = W (Proc.devRef .tc main_arg8) := by
  after_results_simp
theorem A2_keep_arg9 : after opsA2 W (Proc.devRef .tc main_arg9) = W (Proc.devRef .tc main_arg9) := by
  after_results_simp
theorem A2_keep_arg10 : after opsA2 W (Proc.devRef .tc main_arg10) = W (Proc.devRef .tc main_arg10) := by
  after_results_simp
theorem A2_keep_arg11 : after opsA2 W (Proc.devRef .tc main_arg11) = W (Proc.devRef .tc main_arg11) := by
  after_results_simp
theorem A2_keep_arg12 : after opsA2 W (Proc.devRef .tc main_arg12) = W (Proc.devRef .tc main_arg12) := by
  after_results_simp
theorem A2_keep_arg13 : after opsA2 W (Proc.devRef .tc main_arg13) = W (Proc.devRef .tc main_arg13) := by
  after_results_simp
theorem A2_keep_arg14 : after opsA2 W (Proc.devRef .tc main_arg14) = W (Proc.devRef .tc main_arg14) := by
  after_results_simp
theorem B1_keep_v1 : after opsB1 W (Proc.devRef .tc main_v1) = W (Proc.devRef .tc main_v1) := by
  after_results_simp
theorem B1_keep_v3 : after opsB1 W (Proc.devRef .tc main_v3) = W (Proc.devRef .tc main_v3) := by
  after_results_simp
theorem B1_keep_arg2 : after opsB1 W (Proc.devRef .tc main_arg2) = W (Proc.devRef .tc main_arg2) := by
  after_results_simp
theorem B1_keep_arg11 : after opsB1 W (Proc.devRef .tc main_arg11) = W (Proc.devRef .tc main_arg11) := by
  after_results_simp
theorem B1_keep_arg12 : after opsB1 W (Proc.devRef .tc main_arg12) = W (Proc.devRef .tc main_arg12) := by
  after_results_simp
theorem B1_keep_arg13 : after opsB1 W (Proc.devRef .tc main_arg13) = W (Proc.devRef .tc main_arg13) := by
  after_results_simp
theorem B1_keep_arg14 : after opsB1 W (Proc.devRef .tc main_arg14) = W (Proc.devRef .tc main_arg14) := by
  after_results_simp
theorem B2_keep_v1 : after opsB2 W (Proc.devRef .tc main_v1) = W (Proc.devRef .tc main_v1) := by
  after_results_simp
theorem B2_keep_v3 : after opsB2 W (Proc.devRef .tc main_v3) = W (Proc.devRef .tc main_v3) := by
  after_results_simp
theorem B2_keep_arg2 : after opsB2 W (Proc.devRef .tc main_arg2) = W (Proc.devRef .tc main_arg2) := by
  after_results_simp
theorem B2_keep_arg11 : after opsB2 W (Proc.devRef .tc main_arg11) = W (Proc.devRef .tc main_arg11) := by
  after_results_simp
theorem B2_keep_arg12 : after opsB2 W (Proc.devRef .tc main_arg12) = W (Proc.devRef .tc main_arg12) := by
  after_results_simp
theorem B2_keep_arg13 : after opsB2 W (Proc.devRef .tc main_arg13) = W (Proc.devRef .tc main_arg13) := by
  after_results_simp
theorem B2_keep_arg14 : after opsB2 W (Proc.devRef .tc main_arg14) = W (Proc.devRef .tc main_arg14) := by
  after_results_simp

/-! ## The first layer -/

theorem A1_v34 : after opsA1 W (Proc.devRef .tc main_v34) = val_main_v34 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  after_results_simp <;> rfl
theorem A1_v1 : after opsA1 W (Proc.devRef .tc main_v1) = val_main_v1 (F := Ideal) (W (Proc.devRef .tc main_arg1)) := by
  after_results_simp <;> rfl
theorem A1_v3 : after opsA1 W (Proc.devRef .tc main_v3) = val_main_v3 (F := Ideal) (W (Proc.devRef .tc main_arg1)) := by
  after_results_simp <;> rfl
theorem A2_v35 (y : (⟨S50000x256, .f32⟩ : BufTy).Contents (Elt Ideal)) (h : W (Proc.devRef .tc main_v34) = y) :
    after opsA2 W (Proc.devRef .tc main_v35) = reluHost y := by
  after_results_simp
  simp only [ofBuf_toBuf, toBuf_ofBuf]
  rw [h]
  rfl

/-! ## The second layer -/

theorem B1_v66 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
    (h35 : W (Proc.devRef .tc main_v35) = val_main_v35 (F := Ideal) x0 x1 x2 x3 x4 x5 x6) (h1 : W (Proc.devRef .tc main_v1) = val_main_v1 (F := Ideal) x1)
    (h3 : W (Proc.devRef .tc main_v3) = val_main_v3 (F := Ideal) x1) (h2 : W (Proc.devRef .tc main_arg2) = x2)
    (h7 : W (Proc.devRef .tc main_arg7) = x7) (h8 : W (Proc.devRef .tc main_arg8) = x8) (h9 : W (Proc.devRef .tc main_arg9) = x9) (h10 : W (Proc.devRef .tc main_arg10) = x10) :
    after opsB1 W (Proc.devRef .tc main_v66) = val_main_v66 (F := Ideal) x0 x1 x2 x3 x4 x5 x6 x7 x8 x9 x10 := by
  after_results_simp
  rw [h35, h1, h3, h2, h7, h8, h9, h10]
  rfl
theorem B2_v67 (y : (⟨S50000x256, .f32⟩ : BufTy).Contents (Elt Ideal)) (h : W (Proc.devRef .tc main_v66) = y) :
    after opsB2 W (Proc.devRef .tc main_v67) = reluHost y := by
  after_results_simp
  simp only [ofBuf_toBuf, toBuf_ofBuf]
  rw [h]
  rfl

/-! ## The last layer -/

theorem C1_v98 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x8, .f32⟩ : BufTy).Contents (Elt Ideal)) (x12 : (⟨S8, .f32⟩ : BufTy).Contents (Elt Ideal)) (x13 : (⟨S256x8, .f32⟩ : BufTy).Contents (Elt Ideal)) (x14 : (⟨S8, .f32⟩ : BufTy).Contents (Elt Ideal))
    (h67 : W (Proc.devRef .tc main_v67) = val_main_v67 (F := Ideal) x0 x1 x2 x3 x4 x5 x6 x7 x8 x9 x10) (h1 : W (Proc.devRef .tc main_v1) = val_main_v1 (F := Ideal) x1)
    (h3 : W (Proc.devRef .tc main_v3) = val_main_v3 (F := Ideal) x1) (h2 : W (Proc.devRef .tc main_arg2) = x2)
    (h11 : W (Proc.devRef .tc main_arg11) = x11) (h12 : W (Proc.devRef .tc main_arg12) = x12) (h13 : W (Proc.devRef .tc main_arg13) = x13) (h14 : W (Proc.devRef .tc main_arg14) = x14) :
    after opsC1 W (Proc.devRef .tc main_v98) = val_main_v98 (F := Ideal) x0 x1 x2 x3 x4 x5 x6 x7 x8 x9 x10 x11 x12 x13 x14 := by
  after_results_simp
  rw [h67, h1, h3, h2, h11, h12, h13, h14]
  rfl
theorem C2_v99 (y : (⟨S50000x8, .f32⟩ : BufTy).Contents (Elt Ideal)) (h : W (Proc.devRef .tc main_v98) = y) :
    after opsC2 W (Proc.devRef .tc main_v99) = lsmHost y := by
  after_results_simp
  simp only [ofBuf_toBuf, toBuf_ofBuf]
  rw [h]
  rfl

/-! ## Chained -/

/-- After the first layer: its output buffer holds the first stage function. -/
theorem at2_v35 : (after opsA2 (after opsA1 W)) (Proc.devRef .tc main_v35) = val_main_v35 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (A2_v35 (after opsA1 W) _ (A1_v34 W)).trans (v35_eq _ _ _ _ _ _ _).symm

/-- After the second layer: its output buffer holds the second stage function. -/
theorem at4_v67 : (after opsB2 (after opsB1 (after opsA2 (after opsA1 W)))) (Proc.devRef .tc main_v67) = val_main_v67 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  (B2_v67 (after opsB1 (after opsA2 (after opsA1 W))) _ (B1_v66 (after opsA2 (after opsA1 W)) _ _ _ _ _ _ _ _ _ _ _ (at2_v35 W) ((A2_keep_v1 (after opsA1 W)).trans (A1_v1 W)) ((A2_keep_v3 (after opsA1 W)).trans (A1_v3 W)) ((A2_keep_arg2 (after opsA1 W)).trans (A1_keep_arg2 W))
    ((A2_keep_arg7 (after opsA1 W)).trans (A1_keep_arg7 W)) ((A2_keep_arg8 (after opsA1 W)).trans (A1_keep_arg8 W)) ((A2_keep_arg9 (after opsA1 W)).trans (A1_keep_arg9 W)) ((A2_keep_arg10 (after opsA1 W)).trans (A1_keep_arg10 W)))).trans (v67_eq _ _ _ _ _ _ _ _ _ _ _).symm

/-- After the whole line, from any contents, the result buffer holds the reference's last stage function of the
    arguments as those contents have them. -/
theorem result_of : after ops W (Proc.devRef .tc main_v99) = val_main_v99 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [ops_cut]
  simp only [StableHlo.after_append]
  exact (C2_v99 (after opsC1 (after opsB2 (after opsB1 (after opsA2 (after opsA1 W))))) _ (C1_v98 (after opsB2 (after opsB1 (after opsA2 (after opsA1 W)))) _ _ _ _ _ _ _ _ _ _ _ _ _ _ _ (at4_v67 W) ((B2_keep_v1 (after opsB1 (after opsA2 (after opsA1 W)))).trans ((B1_keep_v1 (after opsA2 (after opsA1 W))).trans ((A2_keep_v1 (after opsA1 W)).trans (A1_v1 W)))) ((B2_keep_v3 (after opsB1 (after opsA2 (after opsA1 W)))).trans ((B1_keep_v3 (after opsA2 (after opsA1 W))).trans ((A2_keep_v3 (after opsA1 W)).trans (A1_v3 W)))) ((B2_keep_arg2 (after opsB1 (after opsA2 (after opsA1 W)))).trans ((B1_keep_arg2 (after opsA2 (after opsA1 W))).trans ((A2_keep_arg2 (after opsA1 W)).trans (A1_keep_arg2 W))))
    ((B2_keep_arg11 (after opsB1 (after opsA2 (after opsA1 W)))).trans ((B1_keep_arg11 (after opsA2 (after opsA1 W))).trans ((A2_keep_arg11 (after opsA1 W)).trans (A1_keep_arg11 W)))) ((B2_keep_arg12 (after opsB1 (after opsA2 (after opsA1 W)))).trans ((B1_keep_arg12 (after opsA2 (after opsA1 W))).trans ((A2_keep_arg12 (after opsA1 W)).trans (A1_keep_arg12 W)))) ((B2_keep_arg13 (after opsB1 (after opsA2 (after opsA1 W)))).trans ((B1_keep_arg13 (after opsA2 (after opsA1 W))).trans ((A2_keep_arg13 (after opsA1 W)).trans (A1_keep_arg13 W)))) ((B2_keep_arg14 (after opsB1 (after opsA2 (after opsA1 W)))).trans ((B1_keep_arg14 (after opsA2 (after opsA1 W))).trans ((A2_keep_arg14 (after opsA1 W)).trans (A1_keep_arg14 W)))))).trans (v99_eq _ _ _ _ _ _ _ _ _ _ _ _ _ _ _).symm

/-! ## The arguments -/

theorem kept_arg0 : after ops W (Proc.devRef .tc main_arg0) = W (Proc.devRef .tc main_arg0) := by
  after_results_simp
theorem kept_arg1 : after ops W (Proc.devRef .tc main_arg1) = W (Proc.devRef .tc main_arg1) := by
  after_results_simp
theorem kept_arg2 : after ops W (Proc.devRef .tc main_arg2) = W (Proc.devRef .tc main_arg2) := by
  after_results_simp
theorem kept_arg3 : after ops W (Proc.devRef .tc main_arg3) = W (Proc.devRef .tc main_arg3) := by
  after_results_simp
theorem kept_arg4 : after ops W (Proc.devRef .tc main_arg4) = W (Proc.devRef .tc main_arg4) := by
  after_results_simp
theorem kept_arg5 : after ops W (Proc.devRef .tc main_arg5) = W (Proc.devRef .tc main_arg5) := by
  after_results_simp
theorem kept_arg6 : after ops W (Proc.devRef .tc main_arg6) = W (Proc.devRef .tc main_arg6) := by
  after_results_simp
theorem kept_arg7 : after ops W (Proc.devRef .tc main_arg7) = W (Proc.devRef .tc main_arg7) := by
  after_results_simp
theorem kept_arg8 : after ops W (Proc.devRef .tc main_arg8) = W (Proc.devRef .tc main_arg8) := by
  after_results_simp
theorem kept_arg9 : after ops W (Proc.devRef .tc main_arg9) = W (Proc.devRef .tc main_arg9) := by
  after_results_simp
theorem kept_arg10 : after ops W (Proc.devRef .tc main_arg10) = W (Proc.devRef .tc main_arg10) := by
  after_results_simp
theorem kept_arg11 : after ops W (Proc.devRef .tc main_arg11) = W (Proc.devRef .tc main_arg11) := by
  after_results_simp
theorem kept_arg12 : after ops W (Proc.devRef .tc main_arg12) = W (Proc.devRef .tc main_arg12) := by
  after_results_simp
theorem kept_arg13 : after ops W (Proc.devRef .tc main_arg13) = W (Proc.devRef .tc main_arg13) := by
  after_results_simp
theorem kept_arg14 : after ops W (Proc.devRef .tc main_arg14) = W (Proc.devRef .tc main_arg14) := by
  after_results_simp

end Cert.Sage.RefFold

end
-- ==== Proof.RefSide.lean ====
/-
  THE REFERENCE PROGRAM'S THREE LAYERS ARE THE SPECIFICATION'S, ENTRY BY ENTRY.

  The reference program computes a layer of the weighted mean-aggregation network one whole-array operation at a
  time: the in-degree clamped below at one and spread along the feature axis, the neighbourhood aggregate divided
  by it, a matrix product with the left weights, the left bias row spread down the nodes and added, a matrix product
  of the layer's input with the right weights added, the right bias row added; then max(·, 0) after the two hidden
  layers, and after the last one the row's log-softmax: the row's largest entry M folded from minus infinity, taken
  once more against minus infinity, z − M, its exponential summed along the row from zero, the logarithm of the
  sum subtracted.

  Read at an entry (r, q), each operation reads its operands at entries that are again (r, k), (k, q), (r) or (q):
  a spread reads the entry it was spread from, a product is the sum over k of left(r, k) · right(k, q). Composed,
  the chain is term for term the specification's entry: nothing is regrouped and no float word is evaluated, except
  that a sum started from the word of zero is the bare sum (0 + s = s) and that the largest of minus infinity and M
  is M. The neighbourhood aggregates and the in-degrees stay the opaque arrays they are.
-/
import proofs.«126664_j20968030339124_1_alg».proof.Proof.RefRead
import proofs.«126664_j20968030339124_1_alg».proof.Proof.Spec

noncomputable section

open scoped BigOperators

namespace Cert.Sage.Ref

open Cert.ReferenceIdeal Cert.ReferenceIdeal.Gen Cert.ReferenceIdeal.ReadP Idealize.ShloMosaic Idealize.ShloMosaic.ValueIdx

/-! ## Which entry each layout operation and each product reads

Every index map of the program, applied to an index given by its coordinates, is again an index given by
coordinates: equal coordinate by coordinate. -/

section Indices

variable (r : Fin 50000)

/-! A column [50000, 1] read from a vector [50000], and a vector spread to a column. -/
theorem idx23 (z : Fin 1) : idx_main_v23 (ix2 r z) = ix1 r := funext fun a => Fin.ext (by match a with | ⟨0, _⟩ => rfl)
theorem idx55 (z : Fin 1) : idx_main_v55 (ix2 r z) = ix1 r := funext fun a => Fin.ext (by match a with | ⟨0, _⟩ => rfl)
theorem idx87 (z : Fin 1) : idx_main_v87 (ix2 r z) = ix1 r := funext fun a => Fin.ext (by match a with | ⟨0, _⟩ => rfl)
theorem idxc3 (z : Fin 1) : idx_main_call2_v3 (ix2 r z) = ix1 r := funext fun a => Fin.ext (by match a with | ⟨0, _⟩ => rfl)
theorem idxc8 (z : Fin 1) : idx_main_call2_v8 (ix2 r z) = ix1 r := funext fun a => Fin.ext (by match a with | ⟨0, _⟩ => rfl)

/-! A column spread along the feature axis reads the column's only entry of the row. -/
theorem idx24 (k : Fin 128) : idx_main_v24 (ix2 r k) = ix2 r (0 : Fin 1) := funext fun a => Fin.ext (by match a with | ⟨0, _⟩ => rfl | ⟨1, _⟩ => rfl)
theorem idx56 (k : Fin 256) : idx_main_v56 (ix2 r k) = ix2 r (0 : Fin 1) := funext fun a => Fin.ext (by match a with | ⟨0, _⟩ => rfl | ⟨1, _⟩ => rfl)
theorem idx88 (k : Fin 256) : idx_main_v88 (ix2 r k) = ix2 r (0 : Fin 1) := funext fun a => Fin.ext (by match a with | ⟨0, _⟩ => rfl | ⟨1, _⟩ => rfl)
theorem idxc4 (q : Fin 8) : idx_main_call2_v4 (ix2 r q) = ix2 r (0 : Fin 1) := funext fun a => Fin.ext (by match a with | ⟨0, _⟩ => rfl | ⟨1, _⟩ => rfl)
theorem idxc10 (q : Fin 8) : idx_main_call2_v10 (ix2 r q) = ix2 r (0 : Fin 1) := funext fun a => Fin.ext (by match a with | ⟨0, _⟩ => rfl | ⟨1, _⟩ => rfl)

/-! A bias vector made a row, and the row spread down the nodes. -/
theorem idx27 (z : Fin 1) (q : Fin 256) : idx_main_v27 (ix2 z q) = ix1 q := funext fun a => Fin.ext (by match a with | ⟨0, _⟩ => rfl)
theorem idx32 (z : Fin 1) (q : Fin 256) : idx_main_v32 (ix2 z q) = ix1 q := funext fun a => Fin.ext (by match a with | ⟨0, _⟩ => rfl)
theorem idx59 (z : Fin 1) (q : Fin 256) : idx_main_v59 (ix2 z q) = ix1 q := funext fun a => Fin.ext (by match a with | ⟨0, _⟩ => rfl)
theorem idx64 (z : Fin 1) (q : Fin 256) : idx_main_v64 (ix2 z q) = ix1 q := funext fun a => Fin.ext (by match a with | ⟨0, _⟩ => rfl)
theorem idx91 (z : Fin 1) (q : Fin 8) : idx_main_v91 (ix2 z q) = ix1 q := funext fun a => Fin.ext (by match a with | ⟨0, _⟩ => rfl)
theorem idx96 (z : Fin 1) (q : Fin 8) : idx_main_v96 (ix2 z q) = ix1 q := funext fun a => Fin.ext (by match a with | ⟨0, _⟩ => rfl)
theorem idx28 (q : Fin 256) : idx_main_v28 (ix2 r q) = ix2 (0 : Fin 1) q := funext fun a => Fin.ext (by match a with | ⟨0, _⟩ => rfl | ⟨1, _⟩ => rfl)
theorem idx33 (q : Fin 256) : idx_main_v33 (ix2 r q) = ix2 (0 : Fin 1) q := funext fun a => Fin.ext (by match a with | ⟨0, _⟩ => rfl | ⟨1, _⟩ => rfl)
theorem idx60 (q : Fin 256) : idx_main_v60 (ix2 r q) = ix2 (0 : Fin 1) q := funext fun a => Fin.ext (by match a with | ⟨0, _⟩ => rfl | ⟨1, _⟩ => rfl)
theorem idx65 (q : Fin 256) : idx_main_v65 (ix2 r q) = ix2 (0 : Fin 1) q := funext fun a => Fin.ext (by match a with | ⟨0, _⟩ => rfl | ⟨1, _⟩ => rfl)
theorem idx92 (q : Fin 8) : idx_main_v92 (ix2 r q) = ix2 (0 : Fin 1) q := funext fun a => Fin.ext (by match a with | ⟨0, _⟩ => rfl | ⟨1, _⟩ => rfl)
theorem idx97 (q : Fin 8) : idx_main_v97 (ix2 r q) = ix2 (0 : Fin 1) q := funext fun a => Fin.ext (by match a with | ⟨0, _⟩ => rfl | ⟨1, _⟩ => rfl)

/-! A product's entry (r, q) reads row r of the left operand and column q of the right one. -/
theorem lidx26 (q : Fin 256) (k : Fin 128) : lidx_main_v26 (ix2 r q) k = ix2 r k := funext fun a => Fin.ext (by match a with | ⟨0, _⟩ => rfl | ⟨1, _⟩ => rfl)
theorem ridx26 (q : Fin 256) (k : Fin 128) : ridx_main_v26 (ix2 r q) k = ix2 k q := funext fun a => Fin.ext (by match a with | ⟨0, _⟩ => rfl | ⟨1, _⟩ => rfl)
theorem lidx30 (q : Fin 256) (k : Fin 128) : lidx_main_v30 (ix2 r q) k = ix2 r k := funext fun a => Fin.ext (by match a with | ⟨0, _⟩ => rfl | ⟨1, _⟩ => rfl)
theorem ridx30 (q : Fin 256) (k : Fin 128) : ridx_main_v30 (ix2 r q) k = ix2 k q := funext fun a => Fin.ext (by match a with | ⟨0, _⟩ => rfl | ⟨1, _⟩ => rfl)
theorem lidx58 (q : Fin 256) (k : Fin 256) : lidx_main_v58 (ix2 r q) k = ix2 r k := funext fun a => Fin.ext (by match a with | ⟨0, _⟩ => rfl | ⟨1, _⟩ => rfl)
theorem ridx58 (q : Fin 256) (k : Fin 256) : ridx_main_v58 (ix2 r q) k = ix2 k q := funext fun a => Fin.ext (by match a with | ⟨0, _⟩ => rfl | ⟨1, _⟩ => rfl)
theorem lidx62 (q : Fin 256) (k : Fin 256) : lidx_main_v62 (ix2 r q) k = ix2 r k := funext fun a => Fin.ext (by match a with | ⟨0, _⟩ => rfl | ⟨1, _⟩ => rfl)
theorem ridx62 (q : Fin 256) (k : Fin 256) : ridx_main_v62 (ix2 r q) k = ix2 k q := funext fun a => Fin.ext (by match a with | ⟨0, _⟩ => rfl | ⟨1, _⟩ => rfl)
theorem lidx90 (q : Fin 8) (k : Fin 256) : lidx_main_v90 (ix2 r q) k = ix2 r k := funext fun a => Fin.ext (by match a with | ⟨0, _⟩ => rfl | ⟨1, _⟩ => rfl)
theorem ridx90 (q : Fin 8) (k : Fin 256) : ridx_main_v90 (ix2 r q) k = ix2 k q := funext fun a => Fin.ext (by match a with | ⟨0, _⟩ => rfl | ⟨1, _⟩ => rfl)
theorem lidx94 (q : Fin 8) (k : Fin 256) : lidx_main_v94 (ix2 r q) k = ix2 r k := funext fun a => Fin.ext (by match a with | ⟨0, _⟩ => rfl | ⟨1, _⟩ => rfl)
theorem ridx94 (q : Fin 8) (k : Fin 256) : ridx_main_v94 (ix2 r q) k = ix2 k q := funext fun a => Fin.ext (by match a with | ⟨0, _⟩ => rfl | ⟨1, _⟩ => rfl)

/-! The row sum's term k at row r is the entry (r, k). -/
theorem idxc7 (k : Fin 8) : idx_main_call2_v7 (ix1 r) k = ix2 r k := funext fun a => Fin.ext (by match a with | ⟨0, _⟩ => rfl | ⟨1, _⟩ => rfl)

end Indices

/-! ## The largest entry of a row, as the host program folds it -/

/-- A reduction of a [50000, 8] array along its rows by the larger-of-two operation is, at row r, the fold of max
    from the initial value over the row's eight entries. -/
theorem hostRowMax (z : (⟨S50000x8, .f32⟩ : BufTy).Contents (Elt Ideal)) (init : (⟨S_, .f32⟩ : BufTy).Contents (Elt Ideal))
    (r : Fin 50000) :
    Host.reduce (FloatOps.maximumf (F := Ideal) (φ := .f32)) z init reducesTo_S50000x8_S50000_d1 h_S_ (ix1 r)
      = (Finset.univ : Finset (Fin 8)).fold max (init (Shape.Idx.first h_S_)) (fun k => z (ix2 r k)) :=
  (Host.reduce_eq_fold_single (FloatOps.maximumf (F := Ideal) (φ := .f32)) z init reducesTo_S50000x8_S50000_d1
      (by decide) h_S_ (ix1 r)).trans
    (congrArg (fun f : Fin 8 → EReal => (Finset.univ : Finset (Fin 8)).fold max (init (Shape.Idx.first h_S_)) f)
      (funext fun k => congrArg z (funext fun a => Fin.ext (by match a with | ⟨0, _⟩ => rfl | ⟨1, _⟩ => rfl))))

variable (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x8, .f32⟩ : BufTy).Contents (Elt Ideal)) (x12 : (⟨S8, .f32⟩ : BufTy).Contents (Elt Ideal)) (x13 : (⟨S256x8, .f32⟩ : BufTy).Contents (Elt Ideal)) (x14 : (⟨S8, .f32⟩ : BufTy).Contents (Elt Ideal))

/-! ## The hidden layers -/

/-- The in-degree clamped below at one and spread along the features, at (r, k). -/
theorem clamp0 (r : Fin 50000) (k : Fin 128) :
    val_main_v24 (F := Ideal) x1 (ix2 r k) = max (val_main_v20 (F := Ideal) x1 (ix1 r)) Cert.Sage.one32 := by
  rw [val_main_v24_apply, idx24, val_main_v23_apply, idx23, val_main_v22_apply, val_main_v21_apply,
    val_main_cst_3_apply, Ideal.maximumf_def, Ideal.ofBits_def]

/-- The neighbourhood mean at (r, k). -/
theorem mean0 (r : Fin 50000) (k : Fin 128) :
    val_main_v25 (F := Ideal) x0 x1 x2 (ix2 r k)
      = Ideal.div (val_main_v16 (F := Ideal) x0 x1 x2 (ix2 r k))
          (max (val_main_v20 (F := Ideal) x1 (ix1 r)) Cert.Sage.one32) := by
  rw [val_main_v25_apply, clamp0, Ideal.hostDivf_def]

/-- The mean times the left weights, at (r, q). -/
theorem left0 (r : Fin 50000) (q : Fin 256) :
    val_main_v26 (F := Ideal) x0 x1 x2 x3 (ix2 r q)
      = ∑ k : Fin 128, Ideal.div (val_main_v16 (F := Ideal) x0 x1 x2 (ix2 r k))
          (max (val_main_v20 (F := Ideal) x1 (ix1 r)) Cert.Sage.one32) * x3 (ix2 k q) := by
  rw [val_main_v26_apply]
  exact Finset.sum_congr rfl fun k _ => by rw [lidx26, ridx26, mean0]

/-- The layer's input times the right weights, at (r, q). -/
theorem right0 (r : Fin 50000) (q : Fin 256) :
    val_main_v30 (F := Ideal) x0 x5 (ix2 r q) = ∑ k : Fin 128, x0 (ix2 r k) * x5 (ix2 k q) := by
  rw [val_main_v30_apply]
  exact Finset.sum_congr rfl fun k _ => by rw [lidx30, ridx30]

/-- The left bias spread down the nodes, at (r, q). -/
theorem biasL0 (r : Fin 50000) (q : Fin 256) : val_main_v28 (F := Ideal) x4 (ix2 r q) = x4 (ix1 q) := by
  rw [val_main_v28_apply, idx28, val_main_v27_apply, idx27]

/-- The right bias spread down the nodes, at (r, q). -/
theorem biasR0 (r : Fin 50000) (q : Fin 256) : val_main_v33 (F := Ideal) x6 (ix2 r q) = x6 (ix1 q) := by
  rw [val_main_v33_apply, idx33, val_main_v32_apply, idx32]

/-- Entry (r, q) of the first layer before its max(·, 0). -/
theorem pre0 (r : Fin 50000) (q : Fin 256) :
    val_main_v34 (F := Ideal) x0 x1 x2 x3 x4 x5 x6 (ix2 r q)
      = Cert.Sage.preAt (val_main_v16 (F := Ideal) x0 x1 x2) (val_main_v20 (F := Ideal) x1) x0 x3 x4 x5 x6 r q := by
  rw [val_main_v34_apply, val_main_v31_apply, val_main_v29_apply, left0, biasL0, right0, biasR0,
    Ideal.addf_def, Ideal.addf_def, Ideal.addf_def]
  rfl

/-- The first layer. -/
theorem layer0 :
    val_main_v35 (F := Ideal) x0 x1 x2 x3 x4 x5 x6
      = Cert.Sage.layerRelu (val_main_v16 (F := Ideal) x0 x1 x2) (val_main_v20 (F := Ideal) x1) x0 x3 x4 x5 x6 := by
  funext i
  obtain ⟨r, q, rfl⟩ : ∃ (r : Fin 50000) (q : Fin 256), i = ix2 r q := ⟨i 0, i 1, eq_ix2 i⟩
  rw [val_main_v35_apply, val_main_call0_v0_apply, val_main_call0_cst_apply, pre0, Ideal.maximumf_def,
    Ideal.ofBits_def]
  rfl

/-- The in-degree clamped below at one and spread along the features, at (r, k). -/
theorem clamp1 (r : Fin 50000) (k : Fin 256) :
    val_main_v56 (F := Ideal) x1 (ix2 r k) = max (val_main_v52 (F := Ideal) x1 (ix1 r)) Cert.Sage.one32 := by
  rw [val_main_v56_apply, idx56, val_main_v55_apply, idx55, val_main_v54_apply, val_main_v53_apply,
    val_main_cst_9_apply, Ideal.maximumf_def, Ideal.ofBits_def]

/-- The neighbourhood mean at (r, k). -/
theorem mean1 (r : Fin 50000) (k : Fin 256) :
    val_main_v57 (F := Ideal) x0 x1 x2 x3 x4 x5 x6 (ix2 r k)
      = Ideal.div (val_main_v48 (F := Ideal) x0 x1 x2 x3 x4 x5 x6 (ix2 r k))
          (max (val_main_v52 (F := Ideal) x1 (ix1 r)) Cert.Sage.one32) := by
  rw [val_main_v57_apply, clamp1, Ideal.hostDivf_def]

/-- The mean times the left weights, at (r, q). -/
theorem left1 (r : Fin 50000) (q : Fin 256) :
    val_main_v58 (F := Ideal) x0 x1 x2 x3 x4 x5 x6 x7 (ix2 r q)
      = ∑ k : Fin 256, Ideal.div (val_main_v48 (F := Ideal) x0 x1 x2 x3 x4 x5 x6 (ix2 r k))
          (max (val_main_v52 (F := Ideal) x1 (ix1 r)) Cert.Sage.one32) * x7 (ix2 k q) := by
  rw [val_main_v58_apply]
  exact Finset.sum_congr rfl fun k _ => by rw [lidx58, ridx58, mean1]

/-- The layer's input times the right weights, at (r, q). -/
theorem right1 (r : Fin 50000) (q : Fin 256) :
    val_main_v62 (F := Ideal) x0 x1 x2 x3 x4 x5 x6 x9 (ix2 r q)
      = ∑ k : Fin 256, val_main_v35 (F := Ideal) x0 x1 x2 x3 x4 x5 x6 (ix2 r k) * x9 (ix2 k q) := by
  rw [val_main_v62_apply]
  exact Finset.sum_congr rfl fun k _ => by rw [lidx62, ridx62]

/-- The left bias spread down the nodes, at (r, q). -/
theorem biasL1 (r : Fin 50000) (q : Fin 256) : val_main_v60 (F := Ideal) x8 (ix2 r q) = x8 (ix1 q) := by
  rw [val_main_v60_apply, idx60, val_main_v59_apply, idx59]

/-- The right bias spread down the nodes, at (r, q). -/
theorem biasR1 (r : Fin 50000) (q : Fin 256) : val_main_v65 (F := Ideal) x10 (ix2 r q) = x10 (ix1 q) := by
  rw [val_main_v65_apply, idx65, val_main_v64_apply, idx64]

/-- Entry (r, q) of the second layer before its max(·, 0). -/
theorem pre1 (r : Fin 50000) (q : Fin 256) :
    val_main_v66 (F := Ideal) x0 x1 x2 x3 x4 x5 x6 x7 x8 x9 x10 (ix2 r q)
      = Cert.Sage.preAt (val_main_v48 (F := Ideal) x0 x1 x2 x3 x4 x5 x6) (val_main_v52 (F := Ideal) x1)
          (val_main_v35 (F := Ideal) x0 x1 x2 x3 x4 x5 x6) x7 x8 x9 x10 r q := by
  rw [val_main_v66_apply, val_main_v63_apply, val_main_v61_apply, left1, biasL1, right1, biasR1,
    Ideal.addf_def, Ideal.addf_def, Ideal.addf_def]
  rfl

/-- The second layer. -/
theorem layer1 :
    val_main_v67 (F := Ideal) x0 x1 x2 x3 x4 x5 x6 x7 x8 x9 x10
      = Cert.Sage.layerRelu (val_main_v48 (F := Ideal) x0 x1 x2 x3 x4 x5 x6) (val_main_v52 (F := Ideal) x1)
          (val_main_v35 (F := Ideal) x0 x1 x2 x3 x4 x5 x6) x7 x8 x9 x10 := by
  funext i
  obtain ⟨r, q, rfl⟩ : ∃ (r : Fin 50000) (q : Fin 256), i = ix2 r q := ⟨i 0, i 1, eq_ix2 i⟩
  rw [val_main_v67_apply, val_main_call1_v0_apply, val_main_call1_cst_apply, pre1, Ideal.maximumf_def,
    Ideal.ofBits_def]
  rfl

/-! ## The last layer -/

/-- The in-degree clamped below at one and spread along the features, at (r, k). -/
theorem clamp2 (r : Fin 50000) (k : Fin 256) :
    val_main_v88 (F := Ideal) x1 (ix2 r k) = max (val_main_v84 (F := Ideal) x1 (ix1 r)) Cert.Sage.one32 := by
  rw [val_main_v88_apply, idx88, val_main_v87_apply, idx87, val_main_v86_apply, val_main_v85_apply,
    val_main_cst_15_apply, Ideal.maximumf_def, Ideal.ofBits_def]

/-- The neighbourhood mean at (r, k). -/
theorem mean2 (r : Fin 50000) (k : Fin 256) :
    val_main_v89 (F := Ideal) x0 x1 x2 x3 x4 x5 x6 x7 x8 x9 x10 (ix2 r k)
      = Ideal.div (val_main_v80 (F := Ideal) x0 x1 x2 x3 x4 x5 x6 x7 x8 x9 x10 (ix2 r k))
          (max (val_main_v84 (F := Ideal) x1 (ix1 r)) Cert.Sage.one32) := by
  rw [val_main_v89_apply, clamp2, Ideal.hostDivf_def]

/-- The mean times the left weights, at (r, q). -/
theorem left2 (r : Fin 50000) (q : Fin 8) :
    val_main_v90 (F := Ideal) x0 x1 x2 x3 x4 x5 x6 x7 x8 x9 x10 x11 (ix2 r q)
      = ∑ k : Fin 256, Ideal.div (val_main_v80 (F := Ideal) x0 x1 x2 x3 x4 x5 x6 x7 x8 x9 x10 (ix2 r k))
          (max (val_main_v84 (F := Ideal) x1 (ix1 r)) Cert.Sage.one32) * x11 (ix2 k q) := by
  rw [val_main_v90_apply]
  exact Finset.sum_congr rfl fun k _ => by rw [lidx90, ridx90, mean2]

/-- The layer's input times the right weights, at (r, q). -/
theorem right2 (r : Fin 50000) (q : Fin 8) :
    val_main_v94 (F := Ideal) x0 x1 x2 x3 x4 x5 x6 x7 x8 x9 x10 x13 (ix2 r q)
      = ∑ k : Fin 256, val_main_v67 (F := Ideal) x0 x1 x2 x3 x4 x5 x6 x7 x8 x9 x10 (ix2 r k) * x13 (ix2 k q) := by
  rw [val_main_v94_apply]
  exact Finset.sum_congr rfl fun k _ => by rw [lidx94, ridx94]

/-- The left bias spread down the nodes, at (r, q). -/
theorem biasL2 (r : Fin 50000) (q : Fin 8) : val_main_v92 (F := Ideal) x12 (ix2 r q) = x12 (ix1 q) := by
  rw [val_main_v92_apply, idx92, val_main_v91_apply, idx91]

/-- The right bias spread down the nodes, at (r, q). -/
theorem biasR2 (r : Fin 50000) (q : Fin 8) : val_main_v97 (F := Ideal) x14 (ix2 r q) = x14 (ix1 q) := by
  rw [val_main_v97_apply, idx97, val_main_v96_apply, idx96]

/-- Row r of the last layer before its log-softmax, as the specification writes it. -/
abbrev row2 (r : Fin 50000) : Fin 8 → EReal := fun p =>
  Cert.Sage.preAt (val_main_v80 (F := Ideal) x0 x1 x2 x3 x4 x5 x6 x7 x8 x9 x10) (val_main_v84 (F := Ideal) x1)
    (val_main_v67 (F := Ideal) x0 x1 x2 x3 x4 x5 x6 x7 x8 x9 x10) x11 x12 x13 x14 r p

/-- Entry (r, q) of the last layer before its log-softmax. -/
theorem pre2 (r : Fin 50000) (q : Fin 8) :
    val_main_v98 (F := Ideal) x0 x1 x2 x3 x4 x5 x6 x7 x8 x9 x10 x11 x12 x13 x14 (ix2 r q)
      = row2 x0 x1 x2 x3 x4 x5 x6 x7 x8 x9 x10 x11 x12 x13 x14 r q := by
  rw [val_main_v98_apply, val_main_v95_apply, val_main_v93_apply, left2, biasL2, right2, biasR2,
    Ideal.addf_def, Ideal.addf_def, Ideal.addf_def]
  rfl

/-- The number the program subtracts from row r before exponentiating is the row's largest entry folded from minus
    infinity: the program folds it so, and then takes the larger of minus infinity and the fold, which is the fold. -/
theorem rowMax2 (r : Fin 50000) :
    val_main_call2_v2 (F := Ideal) x0 x1 x2 x3 x4 x5 x6 x7 x8 x9 x10 x11 x12 x13 x14 (ix1 r)
      = Cert.Sage.rowMax (row2 x0 x1 x2 x3 x4 x5 x6 x7 x8 x9 x10 x11 x12 x13 x14 r) := by
  rw [val_main_call2_v2_apply, val_main_call2_v1_apply, val_main_call2_cst_0_apply]
  unfold val_main_call2_v0
  rw [hostRowMax, val_main_call2_cst_apply, Ideal.maximumf_def, Ideal.ofBits_def,
    show (fun k : Fin 8 => val_main_v98 (F := Ideal) x0 x1 x2 x3 x4 x5 x6 x7 x8 x9 x10 x11 x12 x13 x14 (ix2 r k))
        = row2 x0 x1 x2 x3 x4 x5 x6 x7 x8 x9 x10 x11 x12 x13 x14 r from
      funext fun k => pre2 x0 x1 x2 x3 x4 x5 x6 x7 x8 x9 x10 x11 x12 x13 x14 r k]
  exact max_eq_right (Cert.Sage.negInf32_eq.trans_le bot_le)

/-- The entry less the row's largest entry, at (r, q). -/
theorem shifted2 (r : Fin 50000) (q : Fin 8) :
    val_main_call2_v5 (F := Ideal) x0 x1 x2 x3 x4 x5 x6 x7 x8 x9 x10 x11 x12 x13 x14 (ix2 r q)
      = row2 x0 x1 x2 x3 x4 x5 x6 x7 x8 x9 x10 x11 x12 x13 x14 r q
        - Cert.Sage.rowMax (row2 x0 x1 x2 x3 x4 x5 x6 x7 x8 x9 x10 x11 x12 x13 x14 r) := by
  rw [val_main_call2_v5_apply, val_main_call2_v4_apply, idxc4, val_main_call2_v3_apply, idxc3, rowMax2, pre2,
    Ideal.subf_def]

/-- The logarithm of the row's sum of exponentials, spread along the row, at (r, q): the sum starts from zero. -/
theorem logSum2 (r : Fin 50000) (q : Fin 8) :
    val_main_call2_v10 (F := Ideal) x0 x1 x2 x3 x4 x5 x6 x7 x8 x9 x10 x11 x12 x13 x14 (ix2 r q)
      = Ideal.log (∑ p : Fin 8, Ideal.exp (row2 x0 x1 x2 x3 x4 x5 x6 x7 x8 x9 x10 x11 x12 x13 x14 r p
          - Cert.Sage.rowMax (row2 x0 x1 x2 x3 x4 x5 x6 x7 x8 x9 x10 x11 x12 x13 x14 r))) := by
  rw [val_main_call2_v10_apply, idxc10, val_main_call2_v9_apply, val_main_call2_v8_apply, idxc8,
    val_main_call2_v7_apply, val_main_call2_cst_1_apply, Ideal.hostUnary_log_def, Ideal.ofBits_def,
    Ideal.ofBits_zero_f32, zero_add]
  refine congrArg Ideal.log (Finset.sum_congr rfl fun p _ => ?_)
  rw [idxc7, val_main_call2_v6_apply, shifted2, Ideal.hostUnary_exp_def]

/-- The last layer. -/
theorem layer2 :
    val_main_v99 (F := Ideal) x0 x1 x2 x3 x4 x5 x6 x7 x8 x9 x10 x11 x12 x13 x14
      = Cert.Sage.layerLsm (val_main_v80 (F := Ideal) x0 x1 x2 x3 x4 x5 x6 x7 x8 x9 x10) (val_main_v84 (F := Ideal) x1)
          (val_main_v67 (F := Ideal) x0 x1 x2 x3 x4 x5 x6 x7 x8 x9 x10) x11 x12 x13 x14 := by
  funext i
  obtain ⟨r, q, rfl⟩ : ∃ (r : Fin 50000) (q : Fin 8), i = ix2 r q := ⟨i 0, i 1, eq_ix2 i⟩
  rw [val_main_v99_apply, shifted2, logSum2, Ideal.subf_def]
  rfl

end Cert.Sage.Ref

end
-- ==== Proof.Claims.lean ====
/-
  THE FIVE CLAIMS.

  The three frames: the kernel's two programs by their generated frame certificates; the reference's by its run
  (every buffer ends at the fold of its 136 host operations over the launch contents, and no operation writes an
  argument). The idealization rewrote nothing, so `preserves` asks nothing.

  The two idealized programs agree. Run from memories that agree on the arguments, both end, and both result buffers
  hold ONE function of the fifteen arguments — the reference's three stage functions composed: the reference's by
  reading its fold a layer at a time; the kernel's by folding the boundary contents through its three regions, each
  region's result being the specification's layer of what it found, and the specification's layer being the
  reference's stage function. The one law that joins the two sides is that a product with 1 / max(cnt, 1) is a
  quotient by max(cnt, 1) on the extended reals, for every aggregate and every degree: no finiteness is used, and the
  precondition is never opened.
-/
import proofs.«126664_j20968030339124_1_alg».proof.Defs
import proofs.«126664_j20968030339124_1_alg».proof.Proof.Gen.Kernel
import proofs.«126664_j20968030339124_1_alg».proof.Proof.Gen.Kernel.Frame
import proofs.«126664_j20968030339124_1_alg».proof.Proof.Gen.KernelIdeal
import proofs.«126664_j20968030339124_1_alg».proof.Proof.Gen.KernelIdeal.Frame
import proofs.«126664_j20968030339124_1_alg».proof.Proof.Gen.ReferenceIdeal
import proofs.«126664_j20968030339124_1_alg».proof.Proof.Gen.Pre_finite_inputs
import proofs.«126664_j20968030339124_1_alg».proof.Proof.KernelRun
import proofs.«126664_j20968030339124_1_alg».proof.Proof.KernelFold
import proofs.«126664_j20968030339124_1_alg».proof.Proof.RefRun
import proofs.«126664_j20968030339124_1_alg».proof.Proof.RefFold
import proofs.«126664_j20968030339124_1_alg».proof.Proof.RefSide

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, each argument's buffer read through the fold. -/
theorem frame_ri : Cert.frame_ReferenceIdeal := fun m ρ _ =>
  (θ_run Cert.ReferenceIdeal.defs _ _).mono (fun r h c =>
    ⟨(h c Cert.ReferenceIdeal.main_arg0).trans (Cert.Sage.RefFold.kept_arg0 _),
     (h c Cert.ReferenceIdeal.main_arg1).trans (Cert.Sage.RefFold.kept_arg1 _),
     (h c Cert.ReferenceIdeal.main_arg2).trans (Cert.Sage.RefFold.kept_arg2 _),
     (h c Cert.ReferenceIdeal.main_arg3).trans (Cert.Sage.RefFold.kept_arg3 _),
     (h c Cert.ReferenceIdeal.main_arg4).trans (Cert.Sage.RefFold.kept_arg4 _),
     (h c Cert.ReferenceIdeal.main_arg5).trans (Cert.Sage.RefFold.kept_arg5 _),
     (h c Cert.ReferenceIdeal.main_arg6).trans (Cert.Sage.RefFold.kept_arg6 _),
     (h c Cert.ReferenceIdeal.main_arg7).trans (Cert.Sage.RefFold.kept_arg7 _),
     (h c Cert.ReferenceIdeal.main_arg8).trans (Cert.Sage.RefFold.kept_arg8 _),
     (h c Cert.ReferenceIdeal.main_arg9).trans (Cert.Sage.RefFold.kept_arg9 _),
     (h c Cert.ReferenceIdeal.main_arg10).trans (Cert.Sage.RefFold.kept_arg10 _),
     (h c Cert.ReferenceIdeal.main_arg11).trans (Cert.Sage.RefFold.kept_arg11 _),
     (h c Cert.ReferenceIdeal.main_arg12).trans (Cert.Sage.RefFold.kept_arg12 _),
     (h c Cert.ReferenceIdeal.main_arg13).trans (Cert.Sage.RefFold.kept_arg13 _),
     (h c Cert.ReferenceIdeal.main_arg14).trans (Cert.Sage.RefFold.kept_arg14 _)⟩)
    (Cert.ReferenceIdeal.ValueP.run_after (F := Ideal) m ρ)

theorem preserves : Cert.preserves_Kernel_KernelIdeal := trivial

/-- The two idealized programs end with the same result, the reference's stage function of the arguments. -/
theorem algebraic : Cert.algebraic_KernelIdeal_ReferenceIdeal := by
  intro m ρ m' ρ' _ hagree
  refine ⟨fun c => Cert.ReferenceIdeal.ReadP.val_main_v99 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · refine (θ_run Cert.KernelIdeal.defs _ _).mono (fun r h c => ?_) (Cert.Sage.Run.run_value (F := Ideal) m ρ)
    obtain ⟨hv, hargs⟩ := h c
    exact ⟨hv.trans (Cert.Sage.Fold.w6_v60 m ρ c Cert.Sage.Ref.layer0 Cert.Sage.Ref.layer1 Cert.Sage.Ref.layer2), hargs⟩
  · refine (θ_run Cert.ReferenceIdeal.defs _ _).mono (fun r h c =>
      ⟨?_, (h c Cert.ReferenceIdeal.main_arg0).trans (Cert.Sage.RefFold.kept_arg0 _),
       (h c Cert.ReferenceIdeal.main_arg1).trans (Cert.Sage.RefFold.kept_arg1 _),
       (h c Cert.ReferenceIdeal.main_arg2).trans (Cert.Sage.RefFold.kept_arg2 _),
       (h c Cert.ReferenceIdeal.main_arg3).trans (Cert.Sage.RefFold.kept_arg3 _),
       (h c Cert.ReferenceIdeal.main_arg4).trans (Cert.Sage.RefFold.kept_arg4 _),
       (h c Cert.ReferenceIdeal.main_arg5).trans (Cert.Sage.RefFold.kept_arg5 _),
       (h c Cert.ReferenceIdeal.main_arg6).trans (Cert.Sage.RefFold.kept_arg6 _),
       (h c Cert.ReferenceIdeal.main_arg7).trans (Cert.Sage.RefFold.kept_arg7 _),
       (h c Cert.ReferenceIdeal.main_arg8).trans (Cert.Sage.RefFold.kept_arg8 _),
       (h c Cert.ReferenceIdeal.main_arg9).trans (Cert.Sage.RefFold.kept_arg9 _),
       (h c Cert.ReferenceIdeal.main_arg10).trans (Cert.Sage.RefFold.kept_arg10 _),
       (h c Cert.ReferenceIdeal.main_arg11).trans (Cert.Sage.RefFold.kept_arg11 _),
       (h c Cert.ReferenceIdeal.main_arg12).trans (Cert.Sage.RefFold.kept_arg12 _),
       (h c Cert.ReferenceIdeal.main_arg13).trans (Cert.Sage.RefFold.kept_arg13 _),
       (h c Cert.ReferenceIdeal.main_arg14).trans (Cert.Sage.RefFold.kept_arg14 _)⟩)
      (Cert.ReferenceIdeal.ValueP.run_after (F := Ideal) m' ρ')
    obtain ⟨e0, e1, e2, e3, e4, e5, e6, e7, e8, e9, e10, e11, e12, e13, e14⟩ := hagree c
    refine (h c Cert.ReferenceIdeal.main_v99).trans ((Cert.Sage.RefFold.result_of _).trans ?_)
    show Cert.ReferenceIdeal.ReadP.val_main_v99 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) = _
    rw [e0, e1, e2, e3, e4, e5, e6, e7, e8, e9, e10, e11, e12, e13, e14]

end Cert.Proof.Claims

end
-- ==== Proof.lean ====
/-
  The proof of `Cert.Claim` for a three-layer weighted mean-aggregation graph network (50000 nodes, 800000 edges,
  widths 128 → 256 → 256 → 8, max(·, 0) after the hidden layers, a log-softmax after the last): the kernel computes each
  layer's dense part in a row-tiled region and multiplies the aggregate by 1 / max(cnt, 1); the reference computes
  whole arrays and divides by max(cnt, 1). The witnesses of the programs' stated facts come first; the five claims are
  proved in Proof/Claims.lean, which says how.
-/
import proofs.«126664_j20968030339124_1_alg».proof.Defs
import proofs.«126664_j20968030339124_1_alg».proof.Proof.Gen.Kernel
import proofs.«126664_j20968030339124_1_alg».proof.Proof.Gen.Kernel.Skeleton
import proofs.«126664_j20968030339124_1_alg».proof.Proof.Gen.Kernel.Launch
import proofs.«126664_j20968030339124_1_alg».proof.Proof.Gen.Kernel.Points
import proofs.«126664_j20968030339124_1_alg».proof.Proof.Gen.Kernel.Frame
import proofs.«126664_j20968030339124_1_alg».proof.Proof.Gen.KernelIdeal
import proofs.«126664_j20968030339124_1_alg».proof.Proof.Gen.KernelIdeal.Skeleton
import proofs.«126664_j20968030339124_1_alg».proof.Proof.Gen.KernelIdeal.Launch
import proofs.«126664_j20968030339124_1_alg».proof.Proof.Gen.KernelIdeal.Points
import proofs.«126664_j20968030339124_1_alg».proof.Proof.Gen.KernelIdeal.Frame
import proofs.«126664_j20968030339124_1_alg».proof.Proof.Gen.ReferenceIdeal
import proofs.«126664_j20968030339124_1_alg».proof.Proof.Gen.Pre_finite_inputs
import proofs.«126664_j20968030339124_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
